-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S128x128x32 : Shape := ⟨3, ![128, 128, 32]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x128x32 : S_.BroadcastsInDim S128x128x32 (![] : Fin 0 → Fin S128x128x32.rank)
  reducesTo_S128x128x32_S_d0_1_2 : S128x128x32.ReducesTo [0, 1, 2] S_

variable [Facts]

def fn_part1 {F : FTy → Type} [FloatOps F] (main_arg4 : FVec F S128x128 .f32) (main_arg5 : FVec F S128x128 .f32) (main_v13 : IVec S_ 1) (main_v16 : IVec S128x128x32 1) : IVec S_ 1 :=
  let main_c_5 : IVec S_ 1 := constantI S_ 1 1#1
  let main_v17 : IVec S_ 1 := (fun x v => Host.reduce IntOp.andi x v reducesTo_S128x128x32_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S128x128 .f32) (main_arg1 : FVec F S128x128x32 .f32) (main_arg2 : FVec F S128x128x32 .f32) (main_arg3 : FVec F S128x128x32 .f32) (main_arg4 : FVec F S128x128 .f32) (main_arg5 : FVec F S128x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128x32 .f32 := Host.absf main_arg1
  let main_cst_0 : FVec F S_ .f32 := constant S_ .f32 0x7F800000#32
  let main_v5 : FVec F S128x128x32 .f32 := broadcastInDim S128x128x32 ![] bcast_S_S128x128x32 main_cst_0
  let main_v6 : IVec S128x128x32 1 := cmpf .olt main_v4 main_v5
  let main_c_1 : IVec S_ 1 := constantI S_ 1 1#1
  let main_v7 : IVec S_ 1 := (fun x v => Host.reduce IntOp.andi x v reducesTo_S128x128x32_S_d0_1_2 h_S_) main_v6 main_c_1
  let main_v8 : IVec S_ 1 := andi main_v3 main_v7
  let main_v9 : FVec F S128x128x32 .f32 := Host.absf main_arg2
  let main_cst_2 : FVec F S_ .f32 := constant S_ .f32 0x7F800000#32
  let main_v10 : FVec F S128x128x32 .f32 := broadcastInDim S128x128x32 ![] bcast_S_S128x128x32 main_cst_2
  let main_v11 : IVec S128x128x32 1 := cmpf .olt main_v9 main_v10
  let main_c_3 : IVec S_ 1 := constantI S_ 1 1#1
  let main_v12 : IVec S_ 1 := (fun x v => Host.reduce IntOp.andi x v reducesTo_S128x128x32_S_d0_1_2 h_S_) main_v11 main_c_3
  let main_v13 : IVec S_ 1 := andi main_v8 main_v12
  let main_v14 : FVec F S128x128x32 .f32 := Host.absf main_arg3
  let main_cst_4 : FVec F S_ .f32 := constant S_ .f32 0x7F800000#32
  let main_v15 : FVec F S128x128x32 .f32 := broadcastInDim S128x128x32 ![] bcast_S_S128x128x32 main_cst_4
  let main_v16 : IVec S128x128x32 1 := cmpf .olt main_v14 main_v15
  fn_part1 (F := F) main_arg4 main_arg5 main_v13 main_v16
-- ==== Kernel.lean ====
abbrev S128x128 : Shape := ⟨2, ![128, 128]⟩
abbrev S128x128x32 : Shape := ⟨3, ![128, 128, 32]⟩
abbrev S8x128 : Shape := ⟨2, ![8, 128]⟩
abbrev S128x8 : Shape := ⟨2, ![128, 8]⟩
abbrev S8x128x32 : Shape := ⟨3, ![8, 128, 32]⟩
abbrev S8x1x128x1 : Shape := ⟨4, ![8, 1, 128, 1]⟩
abbrev S1x8x128x32 : Shape := ⟨4, ![1, 8, 128, 32]⟩
abbrev S1x8x128x1 : Shape := ⟨4, ![1, 8, 128, 1]⟩
abbrev S1x8x128 : Shape := ⟨3, ![1, 8, 128]⟩
abbrev S8x8x128x32 : Shape := ⟨4, ![8, 8, 128, 32]⟩
abbrev S8x8x128 : Shape := ⟨3, ![8, 8, 128]⟩
abbrev S8x8 : Shape := ⟨2, ![8, 8]⟩

abbrev nBuf : Space → Nat
  | .hbm => 8
  | .vmem => 13
  | .smem => 0
  | _ => 0

abbrev bufTy : (tb : Table) → Fin (tcTables nBuf tb) → BufTy
  | .hbm, ⟨0, _⟩ => ⟨S128x128, .f32⟩
  | .hbm, ⟨1, _⟩ => ⟨S128x128x32, .f32⟩
  | .hbm, ⟨2, _⟩ => ⟨S128x128x32, .f32⟩
  | .hbm, ⟨3, _⟩ => ⟨S128x128x32, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S8x128, .f32⟩
  | .local _ .vmem, ⟨1, _⟩ => ⟨S8x128, .f32⟩
  | .local _ .vmem, ⟨2, _⟩ => ⟨S128x128x32, .f32⟩
  | .local _ .vmem, ⟨3, _⟩ => ⟨S128x128x32, .f32⟩
  | .local _ .vmem, ⟨4, _⟩ => ⟨S128x128x32, .f32⟩
  | .local _ .vmem, ⟨5, _⟩ => ⟨S128x128, .f32⟩
  | .local _ .vmem, ⟨6, _⟩ => ⟨S128x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S128x8, .f32⟩
  | .local _ .vmem, ⟨12, _⟩ => ⟨S128x8, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32_11 : BitVec 32 := 0#32
  let c0_i32 : BitVec 32 := 0#32
  let c1_i32 : BitVec 32 := 1#32
  let arg11 : BitVec 32 := Scf.iv c0_i32 c1_i32 k0_t1
  let c1_i32_10 : BitVec 32 := 1#32
  let v8 : BitVec 32 := Scalar.muli arg11 c1_i32_10
  let v9 : BitVec 32 := Scalar.addi c0_i32_11 v8
  let c8_i32 : BitVec 32 := 8#32
  let v10 : BitVec 32 := Scalar.muli v9 c8_i32
  v10
def k0_off1 (k0_t1 : Fin k0_t1_loop.trips) : Fin 3 → Nat :=
  let c0_i32_11 : BitVec 32 := 0#32
  let c0_i32 : BitVec 32 := 0#32
  let c1_i32 : BitVec 32 := 1#32
  let arg11 : BitVec 32 := Scf.iv c0_i32 c1_i32 k0_t1
  let c1_i32_10 : BitVec 32 := 1#32
  let v8 : BitVec 32 := Scalar.muli arg11 c1_i32_10
  let v9 : BitVec 32 := Scalar.addi c0_i32_11 v8
  let c8_i32 : BitVec 32 := 8#32
  let v10 : BitVec 32 := Scalar.muli v9 c8_i32
  let v12 : Index := Scalar.indexCast v10
  let c0_12 : Index := 0#32
  let c0_13 : Index := 0#32
  ![v12.toNat, 0, 0]
def k0_off2 (k0_t1 : Fin k0_t1_loop.trips) : Fin 2 → Nat :=
  let c0_i32_11 : BitVec 32 := 0#32
  let c0_i32 : BitVec 32 := 0#32
  let c1_i32 : BitVec 32 := 1#32
  let arg11 : BitVec 32 := Scf.iv c0_i32 c1_i32 k0_t1
  let c1_i32_10 : BitVec 32 := 1#32
  let v8 : BitVec 32 := Scalar.muli arg11 c1_i32_10
  let v9 : BitVec 32 := Scalar.addi c0_i32_11 v8
  let c8_i32 : BitVec 32 := 8#32
  let v10 : BitVec 32 := Scalar.muli v9 c8_i32
  let v11 : BitVec 32 := v10
  let v18 : Index := Scalar.indexCast v11
  let c0_18 : Index := 0#32
  ![v18.toNat, 0]
def k0_off3 (k0_t1 : Fin k0_t1_loop.trips) : Fin 2 → Nat :=
  let c0_i32_11 : BitVec 32 := 0#32
  let c0_i32 : BitVec 32 := 0#32
  let c1_i32 : BitVec 32 := 1#32
  let arg11 : BitVec 32 := Scf.iv c0_i32 c1_i32 k0_t1
  let c1_i32_10 : BitVec 32 := 1#32
  let v8 : BitVec 32 := Scalar.muli arg11 c1_i32_10
  let v9 : BitVec 32 := Scalar.addi c0_i32_11 v8
  let c8_i32 : BitVec 32 := 8#32
  let v10 : BitVec 32 := Scalar.muli v9 c8_i32
  let v11 : BitVec 32 := v10
  let v100 : Index := Scalar.indexCast v11
  let c0_33 : Index := 0#32
  ![v100.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8x128_S8x128_0_0 : ∀ a, (![0, 0] : Fin 2 → Nat) a + S8x128.size a ≤ S8x128.size a
  h_S8x128 : 0 < S8x128.numel
  h_S8x128x32 : 0 < S8x128x32.numel
  shapeCasts_S8x128_S8x1x128x1 : S8x128.ShapeCasts S8x1x128x1
  shapeCasts_S8x128x32_S1x8x128x32 : S8x128x32.ShapeCasts S1x8x128x32
  shapeCasts_S8x128_S1x8x128x1 : S8x128.ShapeCasts S1x8x128x1
  shapeCasts_S8x128_S1x8x128 : S8x128.ShapeCasts S1x8x128
  broadcasts_S8x1x128x1_S8x8x128x32 : S8x1x128x1.Broadcasts S8x8x128x32
  broadcasts_S1x8x128x32_S8x8x128x32 : S1x8x128x32.Broadcasts S8x8x128x32
  broadcasts_S1x8x128x1_S8x8x128x32 : S1x8x128x1.Broadcasts S8x8x128x32
  reduces_S8x8x128x32_S8x8x128 : S8x8x128x32.Reduces [3] S8x8x128
  broadcasts_S1x8x128_S8x8x128 : S1x8x128.Broadcasts S8x8x128
  reduces_S8x8x128_S8x8 : S8x8x128.Reduces [2] S8x8
  transposes_S8x8_p1_0_S8x8 : S8x8.Transposes [1, 0] S8x8
  h_S8x8 : 0 < S8x8.numel
  shapeCasts_S8x8_S8x8 : S8x8.ShapeCasts S8x8
  inb_S128x8_S128x8_0_0 : ∀ a, (![0, 0] : Fin 2 → Nat) a + S128x8.size a ≤ S128x8.size a
  h_S128x8 : 0 < S128x8.numel
  transposes_S128x8_p1_0_S8x128 : S128x8.Transposes [1, 0] S8x128
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128x32.size a ≤ S128x128x32.size a
  k0_off2_inb : ∀ k0_t1 : Fin k0_t1_loop.trips, ∀ a, (k0_off2 k0_t1) a + S8x128.size a ≤ S128x128.size a
  k0_off3_inb : ∀ k0_t1 : Fin k0_t1_loop.trips, ∀ a, (k0_off3 k0_t1) a + S8x8.size a ≤ S128x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S128x128.size a
  hwx0_0 : ∀ i : grid0.Coords, EltTy.bits .f32 = 32 ∨ (Rect.block (s := S128x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128x32.size a ≤ S128x128x32.size a
  hwx0_1 : ∀ i : grid0.Coords, EltTy.bits .f32 = 32 ∨ (Rect.block (s := S128x128x32) S128x128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128x32.size a ≤ S128x128x32.size a
  hwx0_2 : ∀ i : grid0.Coords, EltTy.bits .f32 = 32 ∨ (Rect.block (s := S128x128x32) S128x128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128x32.size a ≤ S128x128x32.size a
  hwx0_3 : ∀ i : grid0.Coords, EltTy.bits .f32 = 32 ∨ (Rect.block (s := S128x128x32) S128x128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S128x128.size a
  hwx0_6 : ∀ i : grid0.Coords, EltTy.bits .f32 = 32 ∨ (Rect.block (s := S128x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S128x128.size a
  hwx0_7 : ∀ i : grid0.Coords, EltTy.bits .f32 = 32 ∨ (Rect.block (s := S128x128) S8x128.size (cc0_transform_7 i) (hinb0_7 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x128 : Shape := ⟨2, ![128, 128]⟩
abbrev S128x128x32 : Shape := ⟨3, ![128, 128, 32]⟩
abbrev S_ : Shape := ⟨0, ![]⟩
abbrev S128x1x128x1 : Shape := ⟨4, ![128, 1, 128, 1]⟩
abbrev S1x128x128x1 : Shape := ⟨4, ![1, 128, 128, 1]⟩
abbrev S1x128x128x32 : Shape := ⟨4, ![1, 128, 128, 32]⟩
abbrev S128x128x128x32 : Shape := ⟨4, ![128, 128, 128, 32]⟩
abbrev S128x128x128x1 : Shape := ⟨4, ![128, 128, 128, 1]⟩
abbrev S128x128x128 : Shape := ⟨3, ![128, 128, 128]⟩
abbrev S1x128x128 : Shape := ⟨3, ![1, 128, 128]⟩

abbrev nBuf : Space → Nat
  | .hbm => 104
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128x32, .f32⟩
  | .hbm, ⟨2, _⟩ => ⟨S128x128x32, .f32⟩
  | .hbm, ⟨3, _⟩ => ⟨S128x128x32, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S128x128x32, .f32⟩
  | .hbm, ⟨12, _⟩ => ⟨S_, .f32⟩
  | .hbm, ⟨13, _⟩ => ⟨S128x128x32, .f32⟩
  | .hbm, ⟨14, _⟩ => ⟨S128x128x32, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x1x128x1, .f32⟩
  | .hbm, ⟨24, _⟩ => ⟨S128x1x128x1, .f32⟩
  | .hbm, ⟨25, _⟩ => ⟨S128x128, .f32⟩
  | .hbm, ⟨26, _⟩ => ⟨S1x128x128x1, .f32⟩
  | .hbm, ⟨27, _⟩ => ⟨S1x128x128x1, .f32⟩
  | .hbm, ⟨28, _⟩ => ⟨S1x128x128x32, .f32⟩
  | .hbm, ⟨29, _⟩ => ⟨S128x128x128x32, .f32⟩
  | .hbm, ⟨30, _⟩ => ⟨S128x128x128x32, .f32⟩
  | .hbm, ⟨31, _⟩ => ⟨S128x128x128x32, .f32⟩
  | .hbm, ⟨32, _⟩ => ⟨S128x128x128x1, .f32⟩
  | .hbm, ⟨33, _⟩ => ⟨S128x128x128x1, .f32⟩
  | .hbm, ⟨34, _⟩ => ⟨S128x128x128x1, .f32⟩
  | .hbm, ⟨35, _⟩ => ⟨S128x128x128x1, .f32⟩
  | .hbm, ⟨36, _⟩ => ⟨S128x128x128x1, .f32⟩
  | .hbm, ⟨37, _⟩ => ⟨S128x128x128x1, .f32⟩
  | .hbm, ⟨38, _⟩ => ⟨S128x128x128x1, .f32⟩
  | .hbm, ⟨39, _⟩ => ⟨S128x128x128x1, .f32⟩
  | .hbm, ⟨40, _⟩ => ⟨S128x128x128x32, .f32⟩
  | .hbm, ⟨41, _⟩ => ⟨S128x128x128x32, .f32⟩
  | .hbm, ⟨42, _⟩ => ⟨S_, .f32⟩
  | .hbm, ⟨43, _⟩ => ⟨S128x128x128x1, .f32⟩
  | .hbm, ⟨44, _⟩ => ⟨S128x128x128x1, .f32⟩
  | .hbm, ⟨45, _⟩ => ⟨S128x128x128x32, .f32⟩
  | .hbm, ⟨46, _⟩ => ⟨S128x128x128x32, .f32⟩
  | .hbm, ⟨47, _⟩ => ⟨S128x128x128x32, .f32⟩
  | .hbm, ⟨48, _⟩ => ⟨S128x128x128x32, .f32⟩
  | .hbm, ⟨49, _⟩ => ⟨S128x128x128x32, .f32⟩
  | .hbm, ⟨50, _⟩ => ⟨S_, .f32⟩
  | .hbm, ⟨51, _⟩ => ⟨S128x1x128x1, .f32⟩
  | .hbm, ⟨52, _⟩ => ⟨S128x1x128x1, .f32⟩
  | .hbm, ⟨53, _⟩ => ⟨S128x128x128x1, .f32⟩
  | .hbm, ⟨54, _⟩ => ⟨S128x128x128x1, .f32⟩
  | .hbm, ⟨55, _⟩ => ⟨S128x128x128x1, .f32⟩
  | .hbm, ⟨56, _⟩ => ⟨S1x128x128x1, .f32⟩
  | .hbm, ⟨57, _⟩ => ⟨S128x128x128x1, .f32⟩
  | .hbm, ⟨58, _⟩ => ⟨S128x128x128x1, .f32⟩
  | .hbm, ⟨59, _⟩ => ⟨S128x128x128x1, .f32⟩
  | .hbm, ⟨60, _⟩ => ⟨S128x128x128x1, .f32⟩
  | .hbm, ⟨61, _⟩ => ⟨S128x128x128x1, .f32⟩
  | .hbm, ⟨62, _⟩ => ⟨S128x128x128x32, .f32⟩
  | .hbm, ⟨63, _⟩ => ⟨S128x128x128x32, .f32⟩
  | .hbm, ⟨64, _⟩ => ⟨S128x128x128x32, .f32⟩
  | .hbm, ⟨65, _⟩ => ⟨S128x128x128x32, .f32⟩
  | .hbm, ⟨66, _⟩ => ⟨S128x128x128x32, .f32⟩
  | .hbm, ⟨67, _⟩ => ⟨S128x128x128x32, .f32⟩
  | .hbm, ⟨68, _⟩ => ⟨S128x128x128x32, .f32⟩
  | .hbm, ⟨69, _⟩ => ⟨S1x128x128x32, .f32⟩
  | .hbm, ⟨70, _⟩ => ⟨S128x128x128x32, .f32⟩
  | .hbm, ⟨71, _⟩ => ⟨S128x128x128x32, .f32⟩
  | .hbm, ⟨72, _⟩ => ⟨S_, .f32⟩
  | .hbm, ⟨73, _⟩ => ⟨S128x128x128, .f32⟩
  | .hbm, ⟨74, _⟩ => ⟨S1x128x128, .f32⟩
  | .hbm, ⟨75, _⟩ => ⟨S128x128x128, .f32⟩
  | .hbm, ⟨76, _⟩ => ⟨S128x128x128, .f32⟩
  | .hbm, ⟨77, _⟩ => ⟨S1x128x128, .f32⟩
  | .hbm, ⟨78, _⟩ => ⟨S128x128x32, .f32⟩
  | .hbm, ⟨79, _⟩ => ⟨S128x128x32, .f32⟩
  | .hbm, ⟨80, _⟩ => ⟨S1x128x128x32, .f32⟩
  | .hbm, ⟨81, _⟩ => ⟨S128x128x128x32, .f32⟩
  | .hbm, ⟨82, _⟩ => ⟨S128x128x128x32, .f32⟩
  | .hbm, ⟨83, _⟩ => ⟨S_, .f32⟩
  | .hbm, ⟨84, _⟩ => ⟨S128x128x128, .f32⟩
  | .hbm, ⟨85, _⟩ => ⟨S1x128x128, .f32⟩
  | .hbm, ⟨86, _⟩ => ⟨S128x128x128, .f32⟩
  | .hbm, ⟨87, _⟩ => ⟨S128x128x128, .f32⟩
  | .hbm, ⟨88, _⟩ => ⟨S_, .f32⟩
  | .hbm, ⟨89, _⟩ => ⟨S128x128x128, .f32⟩
  | .hbm, ⟨90, _⟩ => ⟨S128x128x128, .f32⟩
  | .hbm, ⟨91, _⟩ => ⟨S128x128x128, .f32⟩
  | .hbm, ⟨92, _⟩ => ⟨S128x128x128, .f32⟩
  | .hbm, ⟨93, _⟩ => ⟨S128x128x128, .f32⟩
  | .hbm, ⟨94, _⟩ => ⟨S128x128x128, .f32⟩
  | .hbm, ⟨95, _⟩ => ⟨S128x128x128, .f32⟩
  | .hbm, ⟨96, _⟩ => ⟨S128x128x128, .f32⟩
  | .hbm, ⟨97, _⟩ => ⟨S_, .f32⟩
  | .hbm, ⟨98, _⟩ => ⟨S128x128x128, .f32⟩
  | .hbm, ⟨99, _⟩ => ⟨S128x128x128, .f32⟩
  | .hbm, ⟨100, _⟩ => ⟨S_, .f32⟩
  | .hbm, ⟨101, _⟩ => ⟨S128x128, .f32⟩
  | .hbm, ⟨102, _⟩ => ⟨S_, .f32⟩
  | .hbm, ⟨103, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_v82 : Ref sig .tc := ⟨.hbm, 99, rfl⟩
abbrev main_cst_10 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S_S128x128x32 : S_.BroadcastsInDim S128x128x32 (![] : Fin 0 → Fin S128x128x32.rank)
  bcast_S128x128_S128x1x128x1_0_2 : S128x128.BroadcastsInDim S128x1x128x1 (![0, 2] : Fin 2 → Fin S128x1x128x1.rank)
  bcast_S128x128_S1x128x128x1_1_2 : S128x128.BroadcastsInDim S1x128x128x1 (![1, 2] : Fin 2 → Fin S1x128x128x1.rank)
  bcast_S128x128x32_S1x128x128x32_1_2_3 : S128x128x32.BroadcastsInDim S1x128x128x32 (![1, 2, 3] : Fin 3 → Fin S1x128x128x32.rank)
  bcast_S128x1x128x1_S128x128x128x32_0_1_2_3 : S128x1x128x1.BroadcastsInDim S128x128x128x32 (![0, 1, 2, 3] : Fin 4 → Fin S128x128x128x32.rank)
  bcast_S1x128x128x32_S128x128x128x32_0_1_2_3 : S1x128x128x32.BroadcastsInDim S128x128x128x32 (![0, 1, 2, 3] : Fin 4 → Fin S128x128x128x32.rank)
  bcast_S1x128x128x1_S128x128x128x1_0_1_2_3 : S1x128x128x1.BroadcastsInDim S128x128x128x1 (![0, 1, 2, 3] : Fin 4 → Fin S128x128x128x1.rank)
  bcast_S128x1x128x1_S128x128x128x1_0_1_2_3 : S128x1x128x1.BroadcastsInDim S128x128x128x1 (![0, 1, 2, 3] : Fin 4 → Fin S128x128x128x1.rank)
  bcast_S_S128x128x128x1 : S_.BroadcastsInDim S128x128x128x1 (![] : Fin 0 → Fin S128x128x128x1.rank)
  bcast_S128x128x128x1_S128x128x128x32_0_1_2_3 : S128x128x128x1.BroadcastsInDim S128x128x128x32 (![0, 1, 2, 3] : Fin 4 → Fin S128x128x128x32.rank)
  bcast_S_S128x1x128x1 : S_.BroadcastsInDim S128x1x128x1 (![] : Fin 0 → Fin S128x1x128x1.rank)
  reducesTo_S128x128x128x32_S128x128x128_d3 : S128x128x128x32.ReducesTo [3] S128x128x128
  h_S_ : 0 < S_.numel
  bcast_S128x128_S1x128x128_1_2 : S128x128.BroadcastsInDim S1x128x128 (![1, 2] : Fin 2 → Fin S1x128x128.rank)
  bcast_S1x128x128_S128x128x128_0_1_2 : S1x128x128.BroadcastsInDim S128x128x128 (![0, 1, 2] : Fin 3 → Fin S128x128x128.rank)
  bcast_S_S128x128x128 : S_.BroadcastsInDim S128x128x128 (![] : Fin 0 → Fin S128x128x128.rank)
  reducesTo_S128x128x128_S128x128_d2 : S128x128x128.ReducesTo [2] S128x128

variable [Facts₀]

class Facts : Prop extends Facts₀ where

variable [Facts]
-- ==== Proof.KernelLoopCover.lean ====
/-
  The loop's stores fill each scratch buffer.

  The body's loop makes sixteen trips; trip k stores an 8×8 tile into rows 8k … 8k+7 of each of the two 128×8 scratch
  buffers. The sixteen tiles are disjoint and cover all 128 rows, so a load from a scratch buffer after the loop reads
  only what the trips stored, whatever the buffer held when the loop was entered: the value loaded is a function of the
  trips' tiles alone. Stated for either float instance.
-/
import proofs.«106169_j59416577572914_2_alg».proof.Proof.Gen.Kernel.Loops
import Idealize.ShloMosaic.Lib.Ring

set_option maxRecDepth 16384

noncomputable section

namespace Cert.Kernel.LoopCover

open Idealize.ShloMosaic Idealize.ShloMosaic.TcCoe Idealize.ShloMosaic.Tactic
open Idealize.SL Idealize.SL.Sem
open Cert.Kernel Cert.Kernel.Gen

variable {F : FTy → Type} [FloatOps F]

/-- Every index of the first scratch buffer lies in the tile of one of the sixteen trips. -/
theorem cover0 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S128x8.Idx) :
    ∃ pc ∈ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1, y ∈ pc.1.set :=
  View.cover_of_tiledL (s := S128x8) _ ![8, 8] (by sl_kernel_rfl) y

/-- Every index of the second scratch buffer lies in the tile of one of the sixteen trips. -/
theorem cover1 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S128x8.Idx) :
    ∃ pc ∈ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2, y ∈ pc.1.set :=
  View.cover_of_tiledL (s := S128x8) _ ![8, 8] (by sl_kernel_rfl) y

/-- A load from the first scratch buffer after the loop reads the trips' tiles, not the contents `f` at loop entry. -/
theorem scratch0_read (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f : BufTy.Contents (Elt F) arg9.view.ty) (B : LoadRect S128x8) :
    arg9.view.readAt (Elt F) B (arg9.view.writes (Elt F) f
        (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1)
      = arg9.view.readCov (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1 B :=
  View.readAt_writes_of_cover _ f _ B fun j => cover0 𝒱 c bd i arg1 harg1 arg2 harg2 arg3 harg3 arg4 harg4 arg5 harg5 arg6 harg6 arg7 harg7 arg8 harg8 arg9 harg9 arg10 harg10 v0 X_arg2 X_arg3 X_arg4 X_arg5 X_arg6 (B.idx j)

/-- A load from the second scratch buffer after the loop reads the trips' tiles, not the contents `f` at loop entry. -/
theorem scratch1_read (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f : BufTy.Contents (Elt F) arg10.view.ty) (B : LoadRect S128x8) :
    arg10.view.readAt (Elt F) B (arg10.view.writes (Elt F) f
        (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2)
      = arg10.view.readCov (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2 B :=
  View.readAt_writes_of_cover _ f _ B fun j => cover1 𝒱 c bd i arg1 harg1 arg2 harg2 arg3 harg3 arg4 harg4 arg5 harg5 arg6 harg6 arg7 harg7 arg8 harg8 arg9 harg9 arg10 harg10 v0 X_arg2 X_arg3 X_arg4 X_arg5 X_arg6 (B.idx j)

end Cert.Kernel.LoopCover

end
-- ==== Proof.KernelIdealLoopCover.lean ====
/-
  The loop's stores fill each scratch buffer.

  The body's loop makes sixteen trips; trip k stores an 8×8 tile into rows 8k … 8k+7 of each of the two 128×8 scratch
  buffers. The sixteen tiles are disjoint and cover all 128 rows, so a load from a scratch buffer after the loop reads
  only what the trips stored, whatever the buffer held when the loop was entered: the value loaded is a function of the
  trips' tiles alone. Stated for either float instance.
-/
import proofs.«106169_j59416577572914_2_alg».proof.Proof.Gen.KernelIdeal.Loops
import Idealize.ShloMosaic.Lib.Ring

set_option maxRecDepth 16384

noncomputable section

namespace Cert.KernelIdeal.LoopCover

open Idealize.ShloMosaic Idealize.ShloMosaic.TcCoe Idealize.ShloMosaic.Tactic
open Idealize.SL Idealize.SL.Sem
open Cert.KernelIdeal Cert.KernelIdeal.Gen

variable {F : FTy → Type} [FloatOps F]

/-- Every index of the first scratch buffer lies in the tile of one of the sixteen trips. -/
theorem cover0 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S128x8.Idx) :
    ∃ pc ∈ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1, y ∈ pc.1.set :=
  View.cover_of_tiledL (s := S128x8) _ ![8, 8] (by sl_kernel_rfl) y

/-- Every index of the second scratch buffer lies in the tile of one of the sixteen trips. -/
theorem cover1 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S128x8.Idx) :
    ∃ pc ∈ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2, y ∈ pc.1.set :=
  View.cover_of_tiledL (s := S128x8) _ ![8, 8] (by sl_kernel_rfl) y

/-- A load from the first scratch buffer after the loop reads the trips' tiles, not the contents `f` at loop entry. -/
theorem scratch0_read (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f : BufTy.Contents (Elt F) arg9.view.ty) (B : LoadRect S128x8) :
    arg9.view.readAt (Elt F) B (arg9.view.writes (Elt F) f
        (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1)
      = arg9.view.readCov (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1 B :=
  View.readAt_writes_of_cover _ f _ B fun j => cover0 𝒱 c bd i arg1 harg1 arg2 harg2 arg3 harg3 arg4 harg4 arg5 harg5 arg6 harg6 arg7 harg7 arg8 harg8 arg9 harg9 arg10 harg10 v0 X_arg2 X_arg3 X_arg4 X_arg5 X_arg6 (B.idx j)

/-- A load from the second scratch buffer after the loop reads the trips' tiles, not the contents `f` at loop entry. -/
theorem scratch1_read (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f : BufTy.Contents (Elt F) arg10.view.ty) (B : LoadRect S128x8) :
    arg10.view.readAt (Elt F) B (arg10.view.writes (Elt F) f
        (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2)
      = arg10.view.readCov (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2 B :=
  View.readAt_writes_of_cover _ f _ B fun j => cover1 𝒱 c bd i arg1 harg1 arg2 harg2 arg3 harg3 arg4 harg4 arg5 harg5 arg6 harg6 arg7 harg7 arg8 harg8 arg9 harg9 arg10 harg10 v0 X_arg2 X_arg3 X_arg4 X_arg5 X_arg6 (B.idx j)

end Cert.KernelIdeal.LoopCover

end
-- ==== Proof.ScratchTiles.lean ====
/-
  What the two scratch buffers hold after the loop, as one function of the scratch index.

  Trip k of the body's loop stores into rows 8k … 8k+7 of the first scratch buffer the transposed 8×8 tile of edge-mean
  sums of output units 8k … 8k+7 (its value computed from the rows 8k … 8k+7 of the parameter arrays and the sample block),
  and into the same rows of the second buffer the tile of edge-variance sums. The sixteen stores are the only writes, so
  after the loop entry (r, q) of a scratch buffer is entry (r mod 8, q) of the tile of trip r div 8.
-/
import proofs.«106169_j59416577572914_2_alg».proof.Proof.Gen.KernelIdeal.Loops
import proofs.«106169_j59416577572914_2_alg».proof.Proof.KernelIdealLoopCover
import Idealize.ShloMosaic.Lib.Pipeline.Value
import Idealize.ShloMosaic.Lib.ValueIdx

set_option maxRecDepth 16384

noncomputable section

namespace Cert.KernelIdeal.RunValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.LoopCover

variable {F : FTy → Type} [FloatOps F]

/-- The loop makes sixteen trips. -/
theorem trips_eq : k0_t1_loop.trips = 16 := by decide +kernel

/-- The tile of edge-mean sums trip `k` stores: the payload of its store into the first scratch buffer, over the
    chunks it loads at its row offset. -/
def tile0 (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) : FVec F S8x8 .f32 :=
  k0_pay1
    (k0_pay18 (k0_pay10 (View.readAt (Elt F) arg6.view (Rect.unit (s := S128x128) (k0_off2 k) S8x128.size (k0_off2_inb k)).toLoadRect X_arg6))
      (k0_pay11 (View.readAt (Elt F) arg3.view (Rect.unit (s := S128x128x32) (k0_off1 k) S8x128x32.size (k0_off1_inb k)).toLoadRect X_arg3))
      (k0_pay13 (View.readAt (Elt F) arg5.view (Rect.unit (s := S128x128) (k0_off2 k) S8x128.size (k0_off2_inb k)).toLoadRect X_arg5))
      (k0_pay14 (View.readAt (Elt F) arg5.view (Rect.unit (s := S128x128) (k0_off2 k) S8x128.size (k0_off2_inb k)).toLoadRect X_arg5)
        (View.readAt (Elt F) arg6.view (Rect.unit (s := S128x128) (k0_off2 k) S8x128.size (k0_off2_inb k)).toLoadRect X_arg6))
      (k0_pay15 v0 (View.readAt (Elt F) arg2.view (Rect.unit (s := S128x128x32) (k0_off1 k) S8x128x32.size (k0_off1_inb k)).toLoadRect X_arg2))
      (FloatOps.ofBits FTy.f32 0x40000000#32))

/-- The tile of edge-variance sums trip `k` stores into the second scratch buffer. -/
def tile1 (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) : FVec F S8x8 .f32 :=
  k0_pay2
    (k0_pay17 (k0_pay6 v0)
      (k0_pay7 (View.readAt (Elt F) arg2.view (Rect.unit (s := S128x128x32) (k0_off1 k) S8x128x32.size (k0_off1_inb k)).toLoadRect X_arg2))
      (k0_pay8 (View.readAt (Elt F) arg5.view (Rect.unit (s := S128x128) (k0_off2 k) S8x128.size (k0_off2_inb k)).toLoadRect X_arg5))
      (k0_pay9 (View.readAt (Elt F) arg6.view (Rect.unit (s := S128x128) (k0_off2 k) S8x128.size (k0_off2_inb k)).toLoadRect X_arg6))
      (k0_pay10 (View.readAt (Elt F) arg6.view (Rect.unit (s := S128x128) (k0_off2 k) S8x128.size (k0_off2_inb k)).toLoadRect X_arg6))
      (k0_pay11 (View.readAt (Elt F) arg3.view (Rect.unit (s := S128x128x32) (k0_off1 k) S8x128x32.size (k0_off1_inb k)).toLoadRect X_arg3))
      (k0_pay12 (View.readAt (Elt F) arg4.view (Rect.unit (s := S128x128x32) (k0_off1 k) S8x128x32.size (k0_off1_inb k)).toLoadRect X_arg4))
      (k0_pay13 (View.readAt (Elt F) arg5.view (Rect.unit (s := S128x128) (k0_off2 k) S8x128.size (k0_off2_inb k)).toLoadRect X_arg5))
      (k0_pay14 (View.readAt (Elt F) arg5.view (Rect.unit (s := S128x128) (k0_off2 k) S8x128.size (k0_off2_inb k)).toLoadRect X_arg5)
        (View.readAt (Elt F) arg6.view (Rect.unit (s := S128x128) (k0_off2 k) S8x128.size (k0_off2_inb k)).toLoadRect X_arg6))
      (k0_pay15 v0 (View.readAt (Elt F) arg2.view (Rect.unit (s := S128x128x32) (k0_off1 k) S8x128x32.size (k0_off1_inb k)).toLoadRect X_arg2))
      (FloatOps.ofBits FTy.f32 0x40000000#32))

/-- Trip `k` writes ONE piece into the first scratch buffer: its mean tile at rows 8k … 8k+7 (read off the trip's run,
    opened here once). -/
theorem trip_fst (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 k).1
      = [⟨Rect.unit (s := S128x8) (k0_off3 k) S8x8.size (k0_off3_inb k), tile0 arg2 arg3 arg4 arg5 arg6 v0 X_arg2 X_arg3 X_arg4 X_arg5 X_arg6 k⟩] := by
  unfold trip_k0_t1
  dsimp only
  sl_unfold_run_names
  rfl

/-- Trip `k` writes ONE piece into the second scratch buffer: its variance tile at rows 8k … 8k+7. -/
theorem trip_snd (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 k).2.1
      = [⟨Rect.unit (s := S128x8) (k0_off3 k) S8x8.size (k0_off3_inb k), tile1 arg2 arg3 arg4 arg5 arg6 v0 X_arg2 X_arg3 X_arg4 X_arg5 X_arg6 k⟩] := by
  unfold trip_k0_t1
  dsimp only
  sl_unfold_run_names
  rfl

end Cert.KernelIdeal.RunValue

end
-- ==== Proof.ScratchRead.lean ====
/-
  Reading the scratch buffers after the loop.

  The sixteen tiles the trips stored are blocks of ONE function of the scratch index: entry (r, q) is entry (r mod 8, q)
  of the tile of trip r div 8. Every stored piece agrees with that function on its rectangle (by induction over the trips,
  each trip prepending its one piece), and the pieces cover the buffer, so the contents the stores leave are that
  function at every index.
-/
import proofs.«106169_j59416577572914_2_alg».proof.Proof.ScratchTiles

set_option maxRecDepth 16384

noncomputable section

namespace Cert.KernelIdeal.RunValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.LoopCover

variable {F : FTy → Type} [FloatOps F]

/-- The first scratch buffer after the loop, as a function of its index (r, q): the mean tile of trip r div 8 at
    (r mod 8, q). -/
def scratchFn0 (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : S128x8.Idx → Elt F .f32 := fun y =>
  tile0 arg2 arg3 arg4 arg5 arg6 v0 X_arg2 X_arg3 X_arg4 X_arg5 X_arg6 ⟨(y 0).val / 8, by rw [trips_eq]; have := idx2_lt0 y; omega⟩
    (ix2 (⟨(y 0).val % 8, Nat.mod_lt _ (by decide)⟩ : Fin 8) (⟨(y 1).val, idx2_lt1 y⟩ : Fin 8))

/-- The second scratch buffer after the loop: the variance tile of trip r div 8 at (r mod 8, q). -/
def scratchFn1 (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : S128x8.Idx → Elt F .f32 := fun y =>
  tile1 arg2 arg3 arg4 arg5 arg6 v0 X_arg2 X_arg3 X_arg4 X_arg5 X_arg6 ⟨(y 0).val / 8, by rw [trips_eq]; have := idx2_lt0 y; omega⟩
    (ix2 (⟨(y 0).val % 8, Nat.mod_lt _ (by decide)⟩ : Fin 8) (⟨(y 1).val, idx2_lt1 y⟩ : Fin 8))

/-- A tile read at equal trips and equal indices. -/
theorem tile0_congr (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) {k k' : Fin k0_t1_loop.trips} {y y' : S8x8.Idx} (hk : k = k') (hy : y = y') :
    tile0 arg2 arg3 arg4 arg5 arg6 v0 X_arg2 X_arg3 X_arg4 X_arg5 X_arg6 k y = tile0 arg2 arg3 arg4 arg5 arg6 v0 X_arg2 X_arg3 X_arg4 X_arg5 X_arg6 k' y' := by subst hk; subst hy; rfl

theorem tile1_congr (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) {k k' : Fin k0_t1_loop.trips} {y y' : S8x8.Idx} (hk : k = k') (hy : y = y') :
    tile1 arg2 arg3 arg4 arg5 arg6 v0 X_arg2 X_arg3 X_arg4 X_arg5 X_arg6 k y = tile1 arg2 arg3 arg4 arg5 arg6 v0 X_arg2 X_arg3 X_arg4 X_arg5 X_arg6 k' y' := by subst hk; subst hy; rfl

/-- Where trip `k`'s 8×8 rectangle puts its local index `x`: row 8k + x₀, column x₁. -/
theorem tile_rect_emb (k : Fin k0_t1_loop.trips) (x : S8x8.Idx) :
    (((Rect.unit (s := S128x8) (k0_off3 k) S8x8.size (k0_off3_inb k)).emb x) 0).val = 8 * k.val + (x 0).val
    ∧ (((Rect.unit (s := S128x8) (k0_off3 k) S8x8.size (k0_off3_inb k)).emb x) 1).val = (x 1).val := by
  constructor
  · show k0_off3 k 0 + 1 * (x 0).val = _
    rw [k0_off3_eq k]
    show 8 * k.val + 1 * (x 0).val = _
    omega
  · show k0_off3 k 1 + 1 * (x 1).val = _
    rw [k0_off3_eq k]
    show 0 + 1 * (x 1).val = _
    omega

/-- Trip `k`'s mean tile is the block of `scratchFn0` its rectangle names. -/
theorem tile0_block (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (x : S8x8.Idx) :
    tile0 arg2 arg3 arg4 arg5 arg6 v0 X_arg2 X_arg3 X_arg4 X_arg5 X_arg6 k x
      = scratchFn0 arg2 arg3 arg4 arg5 arg6 v0 X_arg2 X_arg3 X_arg4 X_arg5 X_arg6 ((Rect.unit (s := S128x8) (k0_off3 k) S8x8.size (k0_off3_inb k)).emb x) := by
  obtain ⟨e0, e1⟩ := tile_rect_emb k x
  have hx0 : (x 0).val < 8 := idx2_lt0 x
  unfold scratchFn0
  refine tile0_congr arg2 arg3 arg4 arg5 arg6 v0 X_arg2 X_arg3 X_arg4 X_arg5 X_arg6 (Fin.ext ?_) (funext fun a => ?_)
  · show k.val = _ / 8
    rw [e0]; omega
  · match a with
    | ⟨0, _⟩ => exact Fin.ext (by show (x 0).val = _ % 8; rw [e0]; omega)
    | ⟨1, _⟩ => exact Fin.ext (by show (x 1).val = _; rw [e1])

/-- Trip `k`'s variance tile is the block of `scratchFn1` its rectangle names. -/
theorem tile1_block (arg2 : Memref sig .tc .vmem S128x128x32 .f32) (arg3 : Memref sig .tc .vmem S128x128x32 .f32) (arg4 : Memref sig .tc .vmem S128x128x32 .f32) (arg5 : Memref sig .tc .vmem S128x128 .f32) (arg6 : Memref sig .tc .vmem S128x128 .f32) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (x : S8x8.Idx) :
    tile1 arg2 arg3 arg4 arg5 arg6 v0 X_arg2 X_arg3 X_arg4 X_arg5 X_arg6 k x
      = scratchFn1 arg2 arg3 arg4 arg5 arg6 v0 X_arg2 X_arg3 X_arg4 X_arg5 X_arg6 ((Rect.unit (s := S128x8) (k0_off3 k) S8x8.size (k0_off3_inb k)).emb x) := by
  obtain ⟨e0, e1⟩ := tile_rect_emb k x
  have hx0 : (x 0).val < 8 := idx2_lt0 x
  unfold scratchFn1
  refine tile1_congr arg2 arg3 arg4 arg5 arg6 v0 X_arg2 X_arg3 X_arg4 X_arg5 X_arg6 (Fin.ext ?_) (funext fun a => ?_)
  · show k.val = _ / 8
    rw [e0]; omega
  · match a with
    | ⟨0, _⟩ => exact Fin.ext (by show (x 0).val = _ % 8; rw [e0]; omega)
    | ⟨1, _⟩ => exact Fin.ext (by show (x 1).val = _; rw [e1])

/-- Every piece the first `n` trips stored into the first scratch buffer is a block of `scratchFn0`. -/
theorem pieces0 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : ∀ n : ℕ, n ≤ 16 →
    ∀ p ∈ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 n).1, ∀ x : p.1.shape.Idx, p.2 x = scratchFn0 arg2 arg3 arg4 arg5 arg6 v0 X_arg2 X_arg3 X_arg4 X_arg5 X_arg6 (p.1.emb x)
  | 0, _, p, hp, _ => by
    rw [pb_k0_t1.eq_1] at hp
    exact absurd hp List.not_mem_nil
  | n + 1, hn, p, hp, x => by
    have hlt : n < k0_t1_loop.trips := by rw [trips_eq]; omega
    have e : pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (n + 1)
        = ((tripL_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩).1 ++ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 n).1,
           (tripL_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩).2 ++ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 n).2) :=
      pb_k0_t1_succ 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩
    rw [e] at hp
    rcases List.mem_append.mp hp with h1 | h2
    · have h1' : p ∈ (trip_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩).1 := h1
      rw [trip_fst] at h1'
      obtain rfl := List.mem_singleton.mp h1'
      exact tile0_block arg2 arg3 arg4 arg5 arg6 v0 X_arg2 X_arg3 X_arg4 X_arg5 X_arg6 ⟨n, hlt⟩ x
    · exact pieces0 𝒱 c bd i arg1 harg1 arg2 harg2 arg3 harg3 arg4 harg4 arg5 harg5 arg6 harg6 arg7 harg7 arg8 harg8 arg9 harg9 arg10 harg10 v0 X_arg2 X_arg3 X_arg4 X_arg5 X_arg6 n (by omega) p h2 x

/-- Every piece the first `n` trips stored into the second scratch buffer is a block of `scratchFn1`. -/
theorem pieces1 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : ∀ n : ℕ, n ≤ 16 →
    ∀ p ∈ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 n).2, ∀ x : p.1.shape.Idx, p.2 x = scratchFn1 arg2 arg3 arg4 arg5 arg6 v0 X_arg2 X_arg3 X_arg4 X_arg5 X_arg6 (p.1.emb x)
  | 0, _, p, hp, _ => by
    rw [pb_k0_t1.eq_1] at hp
    exact absurd hp List.not_mem_nil
  | n + 1, hn, p, hp, x => by
    have hlt : n < k0_t1_loop.trips := by rw [trips_eq]; omega
    have e : pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (n + 1)
        = ((tripL_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩).1 ++ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 n).1,
           (tripL_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩).2 ++ (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 n).2) :=
      pb_k0_t1_succ 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩
    rw [e] at hp
    rcases List.mem_append.mp hp with h1 | h2
    · have h1' : p ∈ (trip_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 ⟨n, hlt⟩).2.1 := h1
      rw [trip_snd] at h1'
      obtain rfl := List.mem_singleton.mp h1'
      exact tile1_block arg2 arg3 arg4 arg5 arg6 v0 X_arg2 X_arg3 X_arg4 X_arg5 X_arg6 ⟨n, hlt⟩ x
    · exact pieces1 𝒱 c bd i arg1 harg1 arg2 harg2 arg3 harg3 arg4 harg4 arg5 harg5 arg6 harg6 arg7 harg7 arg8 harg8 arg9 harg9 arg10 harg10 v0 X_arg2 X_arg3 X_arg4 X_arg5 X_arg6 n (by omega) p h2 x

/-- The trip count the run states is sixteen. -/
theorem trips_run : Scf.trips k0_t1_loop.lb k0_t1_loop.ub k0_t1_loop.st = 16 := trips_eq

/-- THE FIRST SCRATCH BUFFER AFTER THE LOOP: what the sixteen stores leave is `scratchFn0`. -/
theorem canon_scratch0 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    View.canon (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).1
      = scratchFn0 arg2 arg3 arg4 arg5 arg6 v0 X_arg2 X_arg3 X_arg4 X_arg5 X_arg6 :=
  funext fun y => View.canon_apply_of_pieces (scratchFn0 arg2 arg3 arg4 arg5 arg6 v0 X_arg2 X_arg3 X_arg4 X_arg5 X_arg6) _
    (pieces0 𝒱 c bd i arg1 harg1 arg2 harg2 arg3 harg3 arg4 harg4 arg5 harg5 arg6 harg6 arg7 harg7 arg8 harg8 arg9 harg9 arg10 harg10 v0 X_arg2 X_arg3 X_arg4 X_arg5 X_arg6 _ (le_of_eq trips_run)) y (cover0 𝒱 c bd i arg1 harg1 arg2 harg2 arg3 harg3 arg4 harg4 arg5 harg5 arg6 harg6 arg7 harg7 arg8 harg8 arg9 harg9 arg10 harg10 v0 X_arg2 X_arg3 X_arg4 X_arg5 X_arg6 y)

/-- THE SECOND SCRATCH BUFFER AFTER THE LOOP: what the sixteen stores leave is `scratchFn1`. -/
theorem canon_scratch1 (𝒱 : Variants) (c : Dev nD) (bd : Option 𝒱.V) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (v0 : Vec F S8x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    View.canon (pb_k0_t1 (F := F) 𝒱 c bd i arg1 harg1 arg2 harg2 arg3 harg3 arg4 harg4 arg5 harg5 arg6 harg6 arg7 harg7 arg8 harg8 arg9 harg9 arg10 harg10 v0 X_arg2 X_arg3 X_arg4 X_arg5 X_arg6 (Scf.trips k0_t1_loop.lb k0_t1_loop.ub k0_t1_loop.st)).2
      = scratchFn1 arg2 arg3 arg4 arg5 arg6 v0 X_arg2 X_arg3 X_arg4 X_arg5 X_arg6 :=
  funext fun y => View.canon_apply_of_pieces (scratchFn1 arg2 arg3 arg4 arg5 arg6 v0 X_arg2 X_arg3 X_arg4 X_arg5 X_arg6) _
    (pieces1 𝒱 c bd i arg1 harg1 arg2 harg2 arg3 harg3 arg4 harg4 arg5 harg5 arg6 harg6 arg7 harg7 arg8 harg8 arg9 harg9 arg10 harg10 v0 X_arg2 X_arg3 X_arg4 X_arg5 X_arg6 _ (le_of_eq trips_run)) y (cover1 𝒱 c bd i arg1 harg1 arg2 harg2 arg3 harg3 arg4 harg4 arg5 harg5 arg6 harg6 arg7 harg7 arg8 harg8 arg9 harg9 arg10 harg10 v0 X_arg2 X_arg3 X_arg4 X_arg5 X_arg6 y)

end Cert.KernelIdeal.RunValue

end
-- ==== Proof.Spec.lean ====
/-
  Moment matching of an RBF kernel over inducing points, edge by edge: what both programs compute, as plain functions
  on the extended reals.

  For one edge — a sample value `x`, a log length-scale `ls`, a log signal variance `lv`, and along the edge's 32
  inducing points the locations `z m`, the variational means `qm m` and log variances `qlv m` — with
    ℓ² = max(e^ls, 0.1)²,   σ = max(e^lv, 1e-5),   s_m = max(e^(qlv m), 1e-5),
    ψ₁(m) = σ · √(ℓ² / (ℓ² + ε))  · exp(−(x − z m)² / (2 (ℓ² + ε))),
    ψ₂(m) = σ² · √(ℓ² / (ℓ² + 2ε)) · exp(−(x − z m)² / (ℓ² + 2ε)),          ε = 1e-6,
  the edge's mean is (Σ_m ψ₁(m) · qm m) / σ and its variance is
    max(σ − (Σ_m ψ₂(m)) / σ + (Σ_m ψ₂(m) · (s_m + (qm m)²)) / σ² − mean², ε).
  An output entry (n, o) sums the 128 edges (n, o, i) over i. Every operation is written in the order and grouping
  both programs use, so that each side meets this text by rewriting alone; the constants stay the f32 words that
  denote them.
-/
import Idealize.ShloMosaic.PureOps.Ideal
import Idealize.ShloMosaic.PureOps.Ideal.Laws
import Idealize.ShloMosaic.Lib.ValueIdx

noncomputable section

open scoped BigOperators

namespace Cert.MomentMatch

open Idealize.ShloMosaic Idealize.ShloMosaic.ValueIdx

/-- The floor 1e-5 of the variational and signal variances (its f32 word). -/
abbrev cVar : EReal := Ideal.ofBits .f32 0x3727C5AC#32
/-- The floor 0.1 of the length-scale. -/
abbrev cScale : EReal := Ideal.ofBits .f32 0x3DCCCCCD#32
/-- ε = 1e-6: the input variance, and the floor of an edge's variance. -/
abbrev cEps : EReal := Ideal.ofBits .f32 0x358637BD#32
/-- 2ε = 2e-6 as one f32 word. -/
abbrev cEps2 : EReal := Ideal.ofBits .f32 0x360637BD#32
/-- 2.0. -/
abbrev cTwo : EReal := Ideal.ofBits .f32 0x40000000#32

/-- ℓ²: the squared, floored length-scale. -/
def len2 (ls : EReal) : EReal := max (Ideal.exp ls) cScale * max (Ideal.exp ls) cScale
/-- σ: the floored signal variance. -/
def sigVar (lv : EReal) : EReal := max (Ideal.exp lv) cVar
/-- s: a floored variational variance. -/
def qVar (qlv : EReal) : EReal := max (Ideal.exp qlv) cVar

/-- ψ₁ at one inducing point. -/
def psi1 (x ls lv z : EReal) : EReal :=
  (sigVar lv * Ideal.sqrt (Ideal.div (len2 ls) (len2 ls + cEps)))
    * Ideal.exp (Ideal.div (0 - (x - z) * (x - z)) (cTwo * (len2 ls + cEps)))

/-- ψ₂ at one inducing point. -/
def psi2 (x ls lv z : EReal) : EReal :=
  ((sigVar lv * sigVar lv) * Ideal.sqrt (Ideal.div (len2 ls) (len2 ls + cEps2)))
    * Ideal.exp (Ideal.div (0 - (x - z) * (x - z)) (len2 ls + cEps2))

/-- One edge's mean. -/
def edgeMean (x ls lv : EReal) (z qm : Fin 32 → EReal) : EReal :=
  Ideal.div (∑ m : Fin 32, psi1 x ls lv (z m) * qm m) (sigVar lv)

/-- One edge's variance. -/
def edgeVar (x ls lv : EReal) (z qm qlv : Fin 32 → EReal) : EReal :=
  max (((sigVar lv - Ideal.div (∑ m : Fin 32, psi2 x ls lv (z m)) (sigVar lv))
        + Ideal.div (∑ m : Fin 32, psi2 x ls lv (z m) * (qVar (qlv m) + qm m * qm m)) (sigVar lv * sigVar lv))
      - edgeMean x ls lv z qm * edgeMean x ls lv z qm) cEps

/-- The output mean at sample `n`, output unit `o`: the 128 edge means summed. Each array is given by coordinates. -/
def meanAt (X : Fin 128 → Fin 128 → EReal) (Z QM : Fin 128 → Fin 128 → Fin 32 → EReal) (LS LV : Fin 128 → Fin 128 → EReal)
    (n o : Fin 128) : EReal :=
  ∑ i : Fin 128, edgeMean (X n i) (LS o i) (LV o i) (Z o i) (QM o i)

/-- The output variance at `(n, o)`: the 128 edge variances summed. -/
def varAt (X : Fin 128 → Fin 128 → EReal) (Z QM QLV : Fin 128 → Fin 128 → Fin 32 → EReal) (LS LV : Fin 128 → Fin 128 → EReal)
    (n o : Fin 128) : EReal :=
  ∑ i : Fin 128, edgeVar (X n i) (LS o i) (LV o i) (Z o i) (QM o i) (QLV o i)

/-- A rank-2 array by coordinates. -/
abbrev at2 {a b : ℕ} (A : (⟨2, ![a, b]⟩ : Shape).Idx → EReal) : Fin a → Fin b → EReal := fun p q => A (ix2 p q)
/-- A rank-3 array by coordinates. -/
abbrev at3 {a b c : ℕ} (A : (⟨3, ![a, b, c]⟩ : Shape).Idx → EReal) : Fin a → Fin b → Fin c → EReal :=
  fun p q r => A (ix3 p q r)

/-- The mean output as an array over the six argument arrays (sample values, inducing locations, variational means and
    log variances, log length-scales, log signal variances). -/
def meanArr (X : (⟨2, ![128, 128]⟩ : Shape).Idx → EReal) (Z QM : (⟨3, ![128, 128, 32]⟩ : Shape).Idx → EReal)
    (LS LV : (⟨2, ![128, 128]⟩ : Shape).Idx → EReal) : (⟨2, ![128, 128]⟩ : Shape).Idx → EReal :=
  fun j => meanAt (at2 X) (at3 Z) (at3 QM) (at2 LS) (at2 LV) (j 0) (j 1)

/-- The variance output as an array over the six argument arrays. -/
def varArr (X : (⟨2, ![128, 128]⟩ : Shape).Idx → EReal) (Z QM QLV : (⟨3, ![128, 128, 32]⟩ : Shape).Idx → EReal)
    (LS LV : (⟨2, ![128, 128]⟩ : Shape).Idx → EReal) : (⟨2, ![128, 128]⟩ : Shape).Idx → EReal :=
  fun j => varAt (at2 X) (at3 Z) (at3 QM) (at3 QLV) (at2 LS) (at2 LV) (j 0) (j 1)

/-! ## The three facts about constants that join the two programs' spellings -/

/-- The zero word denotes 0, so adding it on the left changes nothing. -/
theorem zero_word_add (y : EReal) : Ideal.ofBits .f32 0x00000000#32 + y = y := by
  rw [Ideal.ofBits_zero_f32, zero_add]

/-- Doubling ε's word gives the word of 2ε: the two f32 patterns differ by one in the exponent only. -/
theorem two_mul_eps : cTwo * (Ideal.ofBits .f32 0x00000000#32 + cEps) = cEps2 := by
  rw [zero_word_add]
  simp [cTwo, cEps, cEps2, Ideal.ofBits, Ideal.ieee, -EReal.coe_mul]
  rw [← EReal.coe_mul]
  norm_num

/-- Negation is subtraction from the zero word's value. -/
theorem neg_eq_zero_word_sub (y : EReal) : -y = Ideal.ofBits .f32 0x00000000#32 - y := by
  rw [Ideal.ofBits_zero_f32, zero_sub]

end Cert.MomentMatch

end
-- ==== Proof.TripValue.lean ====
/-
  What one trip of the kernel's loop stores, element by element.

  A trip loads eight output units' rows: the inducing locations, the variational means and their log variances (each
  [8, 128, 32]: unit within the chunk, edge, inducing point), the log length-scales and log signal variances ([8, 128]);
  the block of eight samples ([8, 128]: sample, edge) was loaded before the loop. From these it forms, for every
  (sample n, unit o, edge i), the edge's mean and variance over the 32 inducing points, sums each over the 128 edges,
  and stores the two [8, 8] results transposed: row p is the unit, column q the sample.

  Here each stored value is read at (p, q) and shown to be the specification's sum of edge means, respectively of
  edge variances, on the loaded rows. The route is bottom-up: the layout operations of the kernel (the casts that add
  unit axes, the broadcasts over the sample, unit and inducing-point axes) read at coordinates; the two lane sums
  (over the 32 inducing points, over the 128 edges) as finite sums; each prepared value at coordinates; then the edge
  mean and the edge variance, whose operations appear in the specification in the same order and grouping, so that
  after the reads the two sides agree by unfolding. The only arithmetic fact used is that the zero word denotes 0.
-/
import Idealize.ShloMosaic.Lib.ValueIdx
import Idealize.ShloMosaic.Lib.Pipeline.Value
import Idealize.ShloMosaic.Lib.ValueLayout
import Idealize.ShloMosaic.PureOps.Ideal.Laws
import proofs.«106169_j59416577572914_2_alg».proof.Proof.Gen.KernelIdeal.Skeleton
import proofs.«106169_j59416577572914_2_alg».proof.Proof.Spec

noncomputable section

open scoped BigOperators

namespace Cert.KernelIdeal.TripValue

open Cert.KernelIdeal Cert.KernelIdeal.Gen Idealize.ShloMosaic Idealize.ShloMosaic.ValueIdx Cert.MomentMatch

/-! ## Layout operations of this kernel read at coordinates -/

section Layout
variable {α : Type}

/-- An `[8, 128]` array cast to `[8, 1, 128, 1]` reads, at `(n, u, i, w)`, the operand at `(n, i)`. -/
theorem cast_n1i1 (x : S8x128.Idx → α) (h : S8x128.ShapeCasts S8x1x128x1) (n : Fin 8) (u : Fin 1) (i : Fin 128) (w : Fin 1) :
    shapeCast S8x1x128x1 x h (ix4 n u i w) = x (ix2 n i) :=
  shapeCast_apply x h _ _ (by
    have hu : u.val = 0 := by omega
    have hw : w.val = 0 := by omega
    rw [Shape.rowMajor_val_four, Shape.rowMajor_val_two]
    show n.val * 128 + i.val = ((n.val * 1 + u.val) * 128 + i.val) * 1 + w.val
    omega)

/-- An `[8, 128]` array cast to `[1, 8, 128, 1]` reads, at `(u, o, i, w)`, the operand at `(o, i)`. -/
theorem cast_1oi1 (x : S8x128.Idx → α) (h : S8x128.ShapeCasts S1x8x128x1) (u : Fin 1) (o : Fin 8) (i : Fin 128) (w : Fin 1) :
    shapeCast S1x8x128x1 x h (ix4 u o i w) = x (ix2 o i) :=
  shapeCast_apply x h _ _ (by
    have hu : u.val = 0 := by omega
    have hw : w.val = 0 := by omega
    rw [Shape.rowMajor_val_four, Shape.rowMajor_val_two]
    show o.val * 128 + i.val = ((u.val * 8 + o.val) * 128 + i.val) * 1 + w.val
    omega)

/-- An `[8, 128, 32]` array cast to `[1, 8, 128, 32]` reads, at `(u, o, i, m)`, the operand at `(o, i, m)`. -/
theorem cast_1oim (x : S8x128x32.Idx → α) (h : S8x128x32.ShapeCasts S1x8x128x32) (u : Fin 1) (o : Fin 8) (i : Fin 128) (m : Fin 32) :
    shapeCast S1x8x128x32 x h (ix4 u o i m) = x (ix3 o i m) :=
  shapeCast_abc_1abc_apply x h u o i m

/-- An `[8, 128]` array cast to `[1, 8, 128]` reads, at `(u, o, i)`, the operand at `(o, i)`. -/
theorem cast_1oi (x : S8x128.Idx → α) (h : S8x128.ShapeCasts S1x8x128) (u : Fin 1) (o : Fin 8) (i : Fin 128) :
    shapeCast S1x8x128 x h (ix3 u o i) = x (ix2 o i) :=
  shapeCast_ab_1ab_apply x h u o i

/-- `[8, 1, 128, 1]` broadcast to `[8, 8, 128, 32]`: at `(n, o, i, m)` the operand at `(n, 0, i, 0)`. -/
theorem bcast_n1i1 (x : S8x1x128x1.Idx → α) (h : S8x1x128x1.Broadcasts S8x8x128x32) (n o : Fin 8) (i : Fin 128) (m : Fin 32) :
    broadcastTo S8x8x128x32 x h (ix4 n o i m) = x (ix4 n (0 : Fin 1) i (0 : Fin 1)) :=
  broadcastTo_apply x h _ _ fun ax => match ax with
    | ⟨0, _⟩ => rfl | ⟨1, _⟩ => rfl | ⟨2, _⟩ => rfl | ⟨3, _⟩ => rfl

/-- `[1, 8, 128, 32]` broadcast to `[8, 8, 128, 32]`: at `(n, o, i, m)` the operand at `(0, o, i, m)`. -/
theorem bcast_1oim (x : S1x8x128x32.Idx → α) (h : S1x8x128x32.Broadcasts S8x8x128x32) (n o : Fin 8) (i : Fin 128) (m : Fin 32) :
    broadcastTo S8x8x128x32 x h (ix4 n o i m) = x (ix4 (0 : Fin 1) o i m) :=
  broadcastTo_apply x h _ _ fun ax => match ax with
    | ⟨0, _⟩ => rfl | ⟨1, _⟩ => rfl | ⟨2, _⟩ => rfl | ⟨3, _⟩ => rfl

/-- `[1, 8, 128, 1]` broadcast to `[8, 8, 128, 32]`: at `(n, o, i, m)` the operand at `(0, o, i, 0)`. -/
theorem bcast_1oi1 (x : S1x8x128x1.Idx → α) (h : S1x8x128x1.Broadcasts S8x8x128x32) (n o : Fin 8) (i : Fin 128) (m : Fin 32) :
    broadcastTo S8x8x128x32 x h (ix4 n o i m) = x (ix4 (0 : Fin 1) o i (0 : Fin 1)) :=
  broadcastTo_apply x h _ _ fun ax => match ax with
    | ⟨0, _⟩ => rfl | ⟨1, _⟩ => rfl | ⟨2, _⟩ => rfl | ⟨3, _⟩ => rfl

/-- `[1, 8, 128]` broadcast to `[8, 8, 128]`: at `(n, o, i)` the operand at `(0, o, i)`. -/
theorem bcast_1oi (x : S1x8x128.Idx → α) (h : S1x8x128.Broadcasts S8x8x128) (n o : Fin 8) (i : Fin 128) :
    broadcastTo S8x8x128 x h (ix3 n o i) = x (ix3 (0 : Fin 1) o i) :=
  broadcastTo_apply x h _ _ fun ax => match ax with
    | ⟨0, _⟩ => rfl | ⟨1, _⟩ => rfl | ⟨2, _⟩ => rfl

end Layout

/-! ## The two lane sums -/

/-- The sum over the 32 inducing points: the reduction of axis 3 at `(n, o, i)`. -/
theorem sum_m (src : FVec Ideal S8x8x128x32 .f32) (h : S8x8x128x32.Reduces [3] S8x8x128) (hφ : FKind.Formats .f32)
    (hacc : (0x00000000#32 : BitVec 32) = 0x00000000#32) (n o : Fin 8) (i : Fin 128) :
    multiReduction .add [3] S8x8x128 src 0x00000000#32 h hφ hacc (ix3 n o i) = ∑ m : Fin 32, src (ix4 n o i m) := by
  refine (Ideal.multiReduction_add_single src 0x00000000#32 h hφ hacc (ix3 n o i)).trans ?_
  refine Finset.sum_congr rfl fun m _ => congrArg src ?_
  funext a
  match a with
  | ⟨0, _⟩ => rfl | ⟨1, _⟩ => rfl | ⟨2, _⟩ => rfl | ⟨3, _⟩ => rfl

/-- The sum over the 128 edges: the reduction of axis 2 at `(n, o)`. -/
theorem sum_i (src : FVec Ideal S8x8x128 .f32) (h : S8x8x128.Reduces [2] S8x8) (hφ : FKind.Formats .f32)
    (hacc : (0x00000000#32 : BitVec 32) = 0x00000000#32) (n o : Fin 8) :
    multiReduction .add [2] S8x8 src 0x00000000#32 h hφ hacc (ix2 n o) = ∑ i : Fin 128, src (ix3 n o i) := by
  refine (Ideal.multiReduction_add_single src 0x00000000#32 h hφ hacc (ix2 n o)).trans ?_
  refine Finset.sum_congr rfl fun i _ => congrArg src ?_
  funext a
  match a with
  | ⟨0, _⟩ => rfl | ⟨1, _⟩ => rfl | ⟨2, _⟩ => rfl

/-! ## Exponential and square root of a vector, read at an index -/

section Pointwise
variable {s : Shape} {φ : FTy}

/-- An exponential at an index is the exponential of the element. -/
theorem exp_apply (v : FVec Ideal s φ) (j : s.Idx) : Idealize.ShloMosaic.exp v j = Ideal.exp (v j) := rfl
/-- A square root at an index is the square root of the element. -/
theorem sqrt_apply (v : FVec Ideal s φ) (j : s.Idx) : Idealize.ShloMosaic.sqrt v j = Ideal.sqrt (v j) := rfl

end Pointwise

/-! ## The values one trip prepares, at coordinates -/

/-- The floored signal variance of output unit `o`, edge `i`. -/
theorem pay5_apply (v21 : Vec Ideal S8x128 .f32) (o : Fin 8) (i : Fin 128) :
    k0_pay5 (F := Ideal) v21 (ix2 o i) = sigVar (v21 (ix2 o i)) := rfl

/-- The sample block with two unit axes added. -/
theorem pay6_apply (v0 : Vec Ideal S8x128 .f32) (n : Fin 8) (u : Fin 1) (i : Fin 128) (w : Fin 1) :
    k0_pay6 (F := Ideal) v0 (ix4 n u i w) = v0 (ix2 n i) := by
  unfold k0_pay6
  exact cast_n1i1 _ _ n u i w

/-- The inducing locations with a leading unit axis. -/
theorem pay7_apply (v13 : Vec Ideal S8x128x32 .f32) (u : Fin 1) (o : Fin 8) (i : Fin 128) (m : Fin 32) :
    k0_pay7 (F := Ideal) v13 (ix4 u o i m) = v13 (ix3 o i m) := by
  unfold k0_pay7
  exact cast_1oim _ _ u o i m

/-- The squared floored length-scale. -/
theorem pay8_apply (v19 : Vec Ideal S8x128 .f32) (u : Fin 1) (o : Fin 8) (i : Fin 128) (w : Fin 1) :
    k0_pay8 (F := Ideal) v19 (ix4 u o i w) = len2 (v19 (ix2 o i)) := by
  unfold k0_pay8
  exact (cast_1oi1 _ _ u o i w).trans rfl

/-- The floored signal variance, as a column. -/
theorem pay9_apply (v21 : Vec Ideal S8x128 .f32) (u : Fin 1) (o : Fin 8) (i : Fin 128) (w : Fin 1) :
    k0_pay9 (F := Ideal) v21 (ix4 u o i w) = sigVar (v21 (ix2 o i)) := by
  unfold k0_pay9
  exact (cast_1oi1 _ _ u o i w).trans (pay5_apply v21 o i)

/-- The floored signal variance, with a leading unit axis. -/
theorem pay10_apply (v21 : Vec Ideal S8x128 .f32) (u : Fin 1) (o : Fin 8) (i : Fin 128) :
    k0_pay10 (F := Ideal) v21 (ix3 u o i) = sigVar (v21 (ix2 o i)) := by
  unfold k0_pay10
  exact (cast_1oi _ _ u o i).trans (pay5_apply v21 o i)

/-- The variational means with a leading unit axis. -/
theorem pay11_apply (v15 : Vec Ideal S8x128x32 .f32) (u : Fin 1) (o : Fin 8) (i : Fin 128) (m : Fin 32) :
    k0_pay11 (F := Ideal) v15 (ix4 u o i m) = v15 (ix3 o i m) := by
  unfold k0_pay11
  exact cast_1oim _ _ u o i m

/-- The floored variational variances. -/
theorem pay12_apply (v17 : Vec Ideal S8x128x32 .f32) (u : Fin 1) (o : Fin 8) (i : Fin 128) (m : Fin 32) :
    k0_pay12 (F := Ideal) v17 (ix4 u o i m) = qVar (v17 (ix3 o i m)) := by
  unfold k0_pay12
  exact (cast_1oim _ _ u o i m).trans rfl

/-- ℓ² + ε. -/
theorem pay13_apply (v19 : Vec Ideal S8x128 .f32) (u : Fin 1) (o : Fin 8) (i : Fin 128) (w : Fin 1) :
    k0_pay13 (F := Ideal) v19 (ix4 u o i w) = len2 (v19 (ix2 o i)) + cEps := by
  unfold k0_pay13
  exact congrArg (· + cEps) (pay8_apply v19 u o i w)

/-- σ · √(ℓ² / (ℓ² + ε)). -/
theorem pay14_apply (v19 v21 : Vec Ideal S8x128 .f32) (u : Fin 1) (o : Fin 8) (i : Fin 128) (w : Fin 1) :
    k0_pay14 (F := Ideal) v19 v21 (ix4 u o i w)
      = sigVar (v21 (ix2 o i)) * Ideal.sqrt (Ideal.div (len2 (v19 (ix2 o i))) (len2 (v19 (ix2 o i)) + cEps)) := by
  unfold k0_pay14
  show k0_pay9 (F := Ideal) v21 (ix4 u o i w)
      * Ideal.sqrt (Ideal.div (k0_pay8 (F := Ideal) v19 (ix4 u o i w)) (k0_pay13 (F := Ideal) v19 (ix4 u o i w))) = _
  rw [pay9_apply, pay8_apply, pay13_apply]

/-- −(x − z)², written as the kernel writes it: the zero word's value less the square. -/
theorem pay15_apply (v0 : Vec Ideal S8x128 .f32) (v13 : Vec Ideal S8x128x32 .f32) (n o : Fin 8) (i : Fin 128) (m : Fin 32) :
    k0_pay15 (F := Ideal) v0 v13 (ix4 n o i m)
      = 0 - (v0 (ix2 n i) - v13 (ix3 o i m)) * (v0 (ix2 n i) - v13 (ix3 o i m)) := by
  unfold k0_pay15
  show Ideal.ofBits .f32 0x00000000#32
      - (broadcastTo S8x8x128x32 (k0_pay6 (F := Ideal) v0) broadcasts_S8x1x128x1_S8x8x128x32 (ix4 n o i m)
          - broadcastTo S8x8x128x32 (k0_pay7 (F := Ideal) v13) broadcasts_S1x8x128x32_S8x8x128x32 (ix4 n o i m))
        * (broadcastTo S8x8x128x32 (k0_pay6 (F := Ideal) v0) broadcasts_S8x1x128x1_S8x8x128x32 (ix4 n o i m)
          - broadcastTo S8x8x128x32 (k0_pay7 (F := Ideal) v13) broadcasts_S1x8x128x32_S8x8x128x32 (ix4 n o i m)) = _
  rw [bcast_n1i1, bcast_1oim, pay6_apply, pay7_apply, Ideal.ofBits_zero_f32]

/-! ## One edge's mean -/

/-- The edge mean over whatever the trip prepared: the sum over the inducing points of
    (scale · exp(numerator / (c · denominator))) · mean, divided by the signal variance. -/
theorem pay16_gen (v36 : FVec Ideal S1x8x128 .f32) (v37 : FVec Ideal S1x8x128x32 .f32) (v40 v46 : FVec Ideal S1x8x128x1 .f32)
    (v49 : FVec Ideal S8x8x128x32 .f32) (c : Ideal .f32) (n o : Fin 8) (i : Fin 128) :
    k0_pay16 (F := Ideal) v36 v37 v40 v46 v49 c (ix3 n o i)
      = Ideal.div (∑ m : Fin 32, (v46 (ix4 (0 : Fin 1) o i (0 : Fin 1))
            * Ideal.exp (Ideal.div (v49 (ix4 n o i m)) (c * v40 (ix4 (0 : Fin 1) o i (0 : Fin 1)))))
            * v37 (ix4 (0 : Fin 1) o i m))
          (v36 (ix3 (0 : Fin 1) o i)) := by
  unfold k0_pay16
  refine (divf_apply _ _ _).trans ?_
  refine congrArg₂ Ideal.div ((sum_m _ _ _ _ n o i).trans (Finset.sum_congr rfl fun m _ => ?_)) (bcast_1oi _ _ n o i)
  show broadcastTo S8x8x128x32 v46 broadcasts_S1x8x128x1_S8x8x128x32 (ix4 n o i m)
        * Ideal.exp (Ideal.div (v49 (ix4 n o i m))
            (broadcastTo S8x8x128x32 (mulf (broadcast S1x8x128x1 c) v40) broadcasts_S1x8x128x1_S8x8x128x32 (ix4 n o i m)))
        * broadcastTo S8x8x128x32 v37 broadcasts_S1x8x128x32_S8x8x128x32 (ix4 n o i m) = _
  rw [bcast_1oi1, bcast_1oi1, bcast_1oim]
  rfl

/-- One trip's edge mean is the specification's, on the loaded rows. -/
theorem pay16_apply (v0 : Vec Ideal S8x128 .f32) (v13 v15 : Vec Ideal S8x128x32 .f32) (v19 v21 : Vec Ideal S8x128 .f32)
    (n o : Fin 8) (i : Fin 128) :
    k0_pay16 (F := Ideal) (k0_pay10 v21) (k0_pay11 v15) (k0_pay13 v19) (k0_pay14 v19 v21) (k0_pay15 v0 v13)
        (Scalar.ofBits .f32 0x40000000#32) (ix3 n o i)
      = edgeMean (v0 (ix2 n i)) (v19 (ix2 o i)) (v21 (ix2 o i)) (fun m => v13 (ix3 o i m)) (fun m => v15 (ix3 o i m)) := by
  rw [pay16_gen, pay10_apply, pay14_apply, pay13_apply]
  unfold edgeMean psi1
  refine congrArg (fun t => Ideal.div t _) (Finset.sum_congr rfl fun m _ => ?_)
  rw [pay15_apply, pay11_apply]
  rfl

/-- THE MEAN STORED BY ONE TRIP: row `p` (output unit within the chunk), column `q` (sample within the block) of the
    first scratch block is the sum of the 128 edge means. -/
theorem mean_pay_apply (v0 : Vec Ideal S8x128 .f32) (v13 v15 : Vec Ideal S8x128x32 .f32) (v19 v21 : Vec Ideal S8x128 .f32) (p q : Fin 8) :
    k0_pay1 (F := Ideal) (k0_pay18 (k0_pay10 v21) (k0_pay11 v15) (k0_pay13 v19) (k0_pay14 v19 v21) (k0_pay15 v0 v13) (Scalar.ofBits .f32 0x40000000#32)) (ix2 p q)
      = ∑ i : Fin 128, edgeMean (v0 (ix2 q i)) (v19 (ix2 p i)) (v21 (ix2 p i)) (fun m => v13 (ix3 p i m)) (fun m => v15 (ix3 p i m)) := by
  unfold k0_pay1 k0_pay18
  rw [shapeCast_self]
  refine (transpose_ix2_apply _ _ p q).trans ?_
  refine (sum_i _ _ _ _ q p).trans (Finset.sum_congr rfl fun i _ => ?_)
  exact pay16_apply v0 v13 v15 v19 v21 q p i

/-! ## One edge's variance -/

/-- THE VARIANCE STORED BY ONE TRIP: row `p`, column `q` of the second scratch block is the sum of the 128 edge
    variances. After the transposed read and the sum over the edges, the summand at edge `i` is the maximum of
    (σ − Σψ₂/σ + Σψ₂·(s + mean²)/σ² − (edge mean)²) and ε, read operation by operation. -/
theorem var_pay_apply (v0 : Vec Ideal S8x128 .f32) (v13 v15 v17 : Vec Ideal S8x128x32 .f32) (v19 v21 : Vec Ideal S8x128 .f32) (p q : Fin 8) :
    k0_pay2 (F := Ideal) (k0_pay17 (k0_pay6 v0) (k0_pay7 v13) (k0_pay8 v19) (k0_pay9 v21) (k0_pay10 v21) (k0_pay11 v15) (k0_pay12 v17) (k0_pay13 v19) (k0_pay14 v19 v21) (k0_pay15 v0 v13) (Scalar.ofBits .f32 0x40000000#32)) (ix2 p q)
      = ∑ i : Fin 128, edgeVar (v0 (ix2 q i)) (v19 (ix2 p i)) (v21 (ix2 p i)) (fun m => v13 (ix3 p i m)) (fun m => v15 (ix3 p i m)) (fun m => v17 (ix3 p i m)) := by
  unfold k0_pay2
  refine (congrFun (shapeCast_self _ _) _).trans ?_
  refine (transpose_ix2_apply _ _ p q).trans ?_
  unfold k0_pay17
  refine (sum_i _ _ _ _ q p).trans (Finset.sum_congr rfl fun i _ => ?_)
  -- the outer pointwise operations at (q, p, i); the squared edge mean is the specification's
  simp only [maximumf_apply, subf_apply, addf_apply, mulf_apply, divf_apply, broadcast_apply, bcast_1oi,
    pay16_apply, pay10_apply]
  -- the two sums over the inducing points
  rw [sum_m, sum_m]
  -- the summands at (q, p, i, m)
  simp only [mulf_apply, divf_apply, subf_apply, addf_apply, broadcast_apply, exp_apply, sqrt_apply,
    bcast_1oi1, bcast_1oim, bcast_n1i1,
    pay6_apply, pay7_apply, pay8_apply, pay9_apply, pay11_apply, pay12_apply]
  -- the zero word is 0
  simp only [Ideal.ofBits_def, Ideal.ofBits_zero_f32]
  unfold edgeVar psi2
  rfl

end Cert.KernelIdeal.TripValue

end
-- ==== Proof.OutBlock.lean ====
/-
  One grid point's two output blocks, entry by entry.

  At a grid point the body holds a block of 8 samples `x0` and the whole parameter arrays (`x1` inducing locations,
  `x2` variational means, `x3` their log variances, `x4` log length-scales, `x5` log signal variances). After its loop
  it loads each scratch buffer whole, transposes it and stores it as the output block: entry (q, r) of the mean block is
  entry (r, q) of the first scratch buffer, which is entry (r mod 8, q) of the tile of trip r div 8, and that tile entry
  is the sum over the 128 edges of the edge means of sample row q against the parameter rows 8·(r div 8) + r mod 8 = r.
  The variance block is read the same way off the second scratch buffer.
-/
import proofs.«106169_j59416577572914_2_alg».proof.Proof.KernelIdealFrame
import proofs.«106169_j59416577572914_2_alg».proof.Proof.ScratchRead
import proofs.«106169_j59416577572914_2_alg».proof.Proof.TripValue
import proofs.«106169_j59416577572914_2_alg».proof.Proof.Spec
import Idealize.ShloMosaic.Lib.ValueLayout
import Idealize.ShloMosaic.Lib.WholeRead

set_option maxRecDepth 16384

noncomputable section

namespace Cert.KernelIdeal.RunValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.GenP Cert.KernelIdeal.LoopCover Cert.KernelIdeal.TripValue Cert.MomentMatch

/-! ## Where a trip's loads read the parameter arrays -/

/-- Row `p` of the chunk trip `k` loads from a [128,128] parameter array is the array's row 8k + p. -/
theorem chunk2_idx (k : Fin k0_t1_loop.trips) (p : Fin 8) (e : Fin 128) (h : 8 * k.val + p.val < 128) :
    (Rect.unit (s := S128x128) (k0_off2 k) S8x128.size (k0_off2_inb k)).toLoadRect.idx (ix2 p e)
      = ix2 (⟨8 * k.val + p.val, h⟩ : Fin 128) e := by
  funext a
  match a with
  | ⟨0, _⟩ => exact Fin.ext (by
      show k0_off2 k 0 + 1 * p.val = 8 * k.val + p.val
      rw [k0_off2_eq k]; show 8 * k.val + 1 * p.val = _; omega)
  | ⟨1, _⟩ => exact Fin.ext (by
      show k0_off2 k 1 + 1 * e.val = e.val
      rw [k0_off2_eq k]; show 0 + 1 * e.val = _; omega)

/-- Row `p` of the chunk trip `k` loads from a [128,128,32] parameter array is the array's row 8k + p. -/
theorem chunk3_idx (k : Fin k0_t1_loop.trips) (p : Fin 8) (e : Fin 128) (m : Fin 32) (h : 8 * k.val + p.val < 128) :
    (Rect.unit (s := S128x128x32) (k0_off1 k) S8x128x32.size (k0_off1_inb k)).toLoadRect.idx (ix3 p e m)
      = ix3 (⟨8 * k.val + p.val, h⟩ : Fin 128) e m := by
  funext a
  match a with
  | ⟨0, _⟩ => exact Fin.ext (by
      show k0_off1 k 0 + 1 * p.val = 8 * k.val + p.val
      rw [k0_off1_eq k]; show 8 * k.val + 1 * p.val = _; omega)
  | ⟨1, _⟩ => exact Fin.ext (by
      show k0_off1 k 1 + 1 * e.val = e.val
      rw [k0_off1_eq k]; show 0 + 1 * e.val = _; omega)
  | ⟨2, _⟩ => exact Fin.ext (by
      show k0_off1 k 2 + 1 * m.val = m.val
      rw [k0_off1_eq k]; show 0 + 1 * m.val = _; omega)

/-! ## A trip's tiles on the whole arrays -/

/-- Trip `k`'s mean tile at (p, q), the parameter buffers held at the arrays `x1 … x5`: the 128 edge means of sample row
    `q` of `v0` against row 8k + p of the parameter arrays, summed. -/
theorem tile0_apply (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (v0 : Vec Ideal S8x128 .f32) (x1 x2 x3 : Vec Ideal S128x128x32 .f32) (x4 x5 : Vec Ideal S128x128 .f32)
    (k : Fin k0_t1_loop.trips) (p q : Fin 8) (h : 8 * k.val + p.val < 128) :
    tile0 (F := Ideal) arg2 arg3 arg4 arg5 arg6 v0 (harg2.unread x1) (harg3.unread x2) (harg4.unread x3) (harg5.unread x4) (harg6.unread x5) k (ix2 p q)
      = ∑ e : Fin 128, edgeMean (v0 (ix2 q e)) (x4 (ix2 (⟨8 * k.val + p.val, h⟩ : Fin 128) e)) (x5 (ix2 (⟨8 * k.val + p.val, h⟩ : Fin 128) e))
          (fun m => x1 (ix3 (⟨8 * k.val + p.val, h⟩ : Fin 128) e m)) (fun m => x2 (ix3 (⟨8 * k.val + p.val, h⟩ : Fin 128) e m)) := by
  unfold tile0
  refine (mean_pay_apply v0 _ _ _ _ p q).trans ?_
  refine Finset.sum_congr rfl fun e _ => ?_
  simp only [Memref.IsWhole.readAt_unread, chunk2_idx k p e h, chunk3_idx k p e _ h]

/-- Trip `k`'s variance tile at (p, q), likewise: the 128 edge variances summed. -/
theorem tile1_apply (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (v0 : Vec Ideal S8x128 .f32) (x1 x2 x3 : Vec Ideal S128x128x32 .f32) (x4 x5 : Vec Ideal S128x128 .f32)
    (k : Fin k0_t1_loop.trips) (p q : Fin 8) (h : 8 * k.val + p.val < 128) :
    tile1 (F := Ideal) arg2 arg3 arg4 arg5 arg6 v0 (harg2.unread x1) (harg3.unread x2) (harg4.unread x3) (harg5.unread x4) (harg6.unread x5) k (ix2 p q)
      = ∑ e : Fin 128, edgeVar (v0 (ix2 q e)) (x4 (ix2 (⟨8 * k.val + p.val, h⟩ : Fin 128) e)) (x5 (ix2 (⟨8 * k.val + p.val, h⟩ : Fin 128) e))
          (fun m => x1 (ix3 (⟨8 * k.val + p.val, h⟩ : Fin 128) e m)) (fun m => x2 (ix3 (⟨8 * k.val + p.val, h⟩ : Fin 128) e m))
          (fun m => x3 (ix3 (⟨8 * k.val + p.val, h⟩ : Fin 128) e m)) := by
  unfold tile1
  refine (var_pay_apply v0 _ _ _ _ _ p q).trans ?_
  refine Finset.sum_congr rfl fun e _ => ?_
  simp only [Memref.IsWhole.readAt_unread, chunk2_idx k p e h, chunk3_idx k p e _ h]

/-! ## The pieces the whole-body run leaves in the output buffers -/

variable {F : FTy → Type} [FloatOps F]

/-- The run leaves ONE piece in the mean output's buffer: the transpose of the first scratch buffer as the loop left it. -/
theorem run_mean_piece (c : Dev nD) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (x0 : Vec F S8x128 .f32) (x1 x2 x3 : Vec F S128x128x32 .f32) (x4 x5 : Vec F S128x128 .f32) :
    (kernelRun0_A (F := F) c i arg1 harg1 arg2 harg2 arg3 harg3 arg4 harg4 arg5 harg5 arg6 harg6 arg7 harg7 arg8 harg8 arg9 harg9 arg10 harg10 x0 x1 x2 x3 x4 x5).1
      = [⟨Rect.unit (s := S8x128) ![0, 0] S8x128.size inb_S8x128_S8x128_0_0,
          k0_pay3 (arg9.view.readCov
            (pb_k0_t1 (F := F) Variants.none c none i arg1 harg1 arg2 harg2 arg3 harg3 arg4 harg4 arg5 harg5 arg6 harg6 arg7 harg7 arg8 harg8 arg9 harg9 arg10 harg10 (View.readAt (Elt F) arg1.view (Rect.unit (s := S8x128) ![0, 0] S8x128.size inb_S8x128_S8x128_0_0).toLoadRect (harg1.unread x0)) (harg2.unread x1) (harg3.unread x2) (harg4.unread x3) (harg5.unread x4) (harg6.unread x5) (Scf.trips k0_t1_loop.lb k0_t1_loop.ub k0_t1_loop.st)).1
            (Rect.unit (s := S128x8) ![0, 0] S128x8.size inb_S128x8_S128x8_0_0).toLoadRect)⟩] := by
  unfold kernelRun0_A
  rfl

/-- The run leaves ONE piece in the variance output's buffer: the transpose of the second scratch buffer. -/
theorem run_var_piece (c : Dev nD) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (x0 : Vec F S8x128 .f32) (x1 x2 x3 : Vec F S128x128x32 .f32) (x4 x5 : Vec F S128x128 .f32) :
    (kernelRun0_A (F := F) c i arg1 harg1 arg2 harg2 arg3 harg3 arg4 harg4 arg5 harg5 arg6 harg6 arg7 harg7 arg8 harg8 arg9 harg9 arg10 harg10 x0 x1 x2 x3 x4 x5).2.1
      = [⟨Rect.unit (s := S8x128) ![0, 0] S8x128.size inb_S8x128_S8x128_0_0,
          k0_pay4 (arg10.view.readCov
            (pb_k0_t1 (F := F) Variants.none c none i arg1 harg1 arg2 harg2 arg3 harg3 arg4 harg4 arg5 harg5 arg6 harg6 arg7 harg7 arg8 harg8 arg9 harg9 arg10 harg10 (View.readAt (Elt F) arg1.view (Rect.unit (s := S8x128) ![0, 0] S8x128.size inb_S8x128_S8x128_0_0).toLoadRect (harg1.unread x0)) (harg2.unread x1) (harg3.unread x2) (harg4.unread x3) (harg5.unread x4) (harg6.unread x5) (Scf.trips k0_t1_loop.lb k0_t1_loop.ub k0_t1_loop.st)).2
            (Rect.unit (s := S128x8) ![0, 0] S128x8.size inb_S128x8_S128x8_0_0).toLoadRect)⟩] := by
  unfold kernelRun0_A
  rfl

/-- A pair of zero offsets is the zero function. -/
theorem zero2 : (![0, 0] : Fin 2 → ℕ) = fun _ => 0 := by
  funext a; match a with | ⟨0, _⟩ => rfl | ⟨1, _⟩ => rfl

/-- The sample block as the body first loads it is the block itself. -/
theorem sample_load (arg1 : Memref sig .tc .vmem S8x128 .f32) (harg1 : arg1.IsWhole) (x0 : Vec F S8x128 .f32) :
    (View.readAt (Elt F) arg1.view (Rect.unit (s := S8x128) ![0, 0] S8x128.size inb_S8x128_S8x128_0_0).toLoadRect (harg1.unread x0)) = x0 := by
  rw [View.readAt_eq_ld, harg1.read_unread, View.ld_unit_zero zero2]

/-- THE MEAN BLOCK as a function: entry (q, r) is entry (r, q) of the first scratch buffer after the loop. -/
theorem out6_scratch (c : Dev nD) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (x0 : Vec F S8x128 .f32) (x1 x2 x3 : Vec F S128x128x32 .f32) (x4 x5 : Vec F S128x128 .f32) (q : Fin 8) (r : Fin 128) :
    out0_A_6 (F := F) c i arg1 harg1 arg2 harg2 arg3 harg3 arg4 harg4 arg5 harg5 arg6 harg6 arg7 harg7 arg8 harg8 arg9 harg9 arg10 harg10 x0 x1 x2 x3 x4 x5 (ix2 q r)
      = scratchFn0 arg2 arg3 arg4 arg5 arg6 x0 (harg2.unread x1) (harg3.unread x2) (harg4.unread x3) (harg5.unread x4) (harg6.unread x5) (ix2 r q) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5), run_mean_piece,
    View.canon_unit_zero zero2]
  unfold k0_pay3
  rw [transpose_ix2_apply, View.readCov_eq_canon_ld _ _ _ (cover0 _ _ _ _ _ _ _ _ _ _ _ _ _ _ _ _ _ _ _ _ _ _ _ _ _ _ _ _ _ _),
    View.ld_unit_zero zero2, canon_scratch0, sample_load]

/-- THE VARIANCE BLOCK as a function: entry (q, r) is entry (r, q) of the second scratch buffer after the loop. -/
theorem out7_scratch (c : Dev nD) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (x0 : Vec F S8x128 .f32) (x1 x2 x3 : Vec F S128x128x32 .f32) (x4 x5 : Vec F S128x128 .f32) (q : Fin 8) (r : Fin 128) :
    out0_A_7 (F := F) c i arg1 harg1 arg2 harg2 arg3 harg3 arg4 harg4 arg5 harg5 arg6 harg6 arg7 harg7 arg8 harg8 arg9 harg9 arg10 harg10 x0 x1 x2 x3 x4 x5 (ix2 q r)
      = scratchFn1 arg2 arg3 arg4 arg5 arg6 x0 (harg2.unread x1) (harg3.unread x2) (harg4.unread x3) (harg5.unread x4) (harg6.unread x5) (ix2 r q) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5), run_var_piece,
    View.canon_unit_zero zero2]
  unfold k0_pay4
  rw [transpose_ix2_apply, View.readCov_eq_canon_ld _ _ _ (cover1 _ _ _ _ _ _ _ _ _ _ _ _ _ _ _ _ _ _ _ _ _ _ _ _ _ _ _ _ _ _),
    View.ld_unit_zero zero2, canon_scratch1, sample_load]

/-- Row r of an array is row 8·(r div 8) + r mod 8. -/
theorem row_split (r : Fin 128) (h : 8 * (r.val / 8) + r.val % 8 < 128) : (⟨8 * (r.val / 8) + r.val % 8, h⟩ : Fin 128) = r :=
  Fin.ext (by show 8 * (r.val / 8) + r.val % 8 = r.val; omega)

/-- The mean block a grid point leaves, at (sample q of the block, output unit r). -/
theorem out6_apply (c : Dev nD) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (x0 : Vec Ideal S8x128 .f32) (x1 x2 x3 : Vec Ideal S128x128x32 .f32) (x4 x5 : Vec Ideal S128x128 .f32) (q : Fin 8) (r : Fin 128) :
    out0_A_6 (F := Ideal) c i arg1 harg1 arg2 harg2 arg3 harg3 arg4 harg4 arg5 harg5 arg6 harg6 arg7 harg7 arg8 harg8 arg9 harg9 arg10 harg10 x0 x1 x2 x3 x4 x5 (ix2 q r)
      = ∑ e : Fin 128, edgeMean (x0 (ix2 q e)) (x4 (ix2 r e)) (x5 (ix2 r e)) (fun m => x1 (ix3 r e m)) (fun m => x2 (ix3 r e m)) := by
  have h : 8 * (r.val / 8) + r.val % 8 < 128 := by have := r.isLt; omega
  rw [out6_scratch]
  unfold scratchFn0
  refine (tile0_apply arg1 harg1 arg2 harg2 arg3 harg3 arg4 harg4 arg5 harg5 arg6 harg6 x0 x1 x2 x3 x4 x5 _ _ q h).trans ?_
  rw [row_split r h]

/-- The variance block a grid point leaves, at (sample q of the block, output unit r). -/
theorem out7_apply (c : Dev nD) (i : grid0.Coords) (arg1 : Memref sig .tc .vmem S8x128 .f32) (harg1 : arg1.IsWhole) (arg2 : Memref sig .tc .vmem S128x128x32 .f32) (harg2 : arg2.IsWhole) (arg3 : Memref sig .tc .vmem S128x128x32 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S128x8 .f32) (harg9 : arg9.IsWhole) (arg10 : Memref sig .tc .vmem S128x8 .f32) (harg10 : arg10.IsWhole) (x0 : Vec Ideal S8x128 .f32) (x1 x2 x3 : Vec Ideal S128x128x32 .f32) (x4 x5 : Vec Ideal S128x128 .f32) (q : Fin 8) (r : Fin 128) :
    out0_A_7 (F := Ideal) c i arg1 harg1 arg2 harg2 arg3 harg3 arg4 harg4 arg5 harg5 arg6 harg6 arg7 harg7 arg8 harg8 arg9 harg9 arg10 harg10 x0 x1 x2 x3 x4 x5 (ix2 q r)
      = ∑ e : Fin 128, edgeVar (x0 (ix2 q e)) (x4 (ix2 r e)) (x5 (ix2 r e)) (fun m => x1 (ix3 r e m)) (fun m => x2 (ix3 r e m))
          (fun m => x3 (ix3 r e m)) := by
  have h : 8 * (r.val / 8) + r.val % 8 < 128 := by have := r.isLt; omega
  rw [out7_scratch]
  unfold scratchFn1
  refine (tile1_apply arg1 harg1 arg2 harg2 arg3 harg3 arg4 harg4 arg5 harg5 arg6 harg6 x0 x1 x2 x3 x4 x5 _ _ q h).trans ?_
  rw [row_split r h]

end Cert.KernelIdeal.RunValue

end
-- ==== Proof.KernelValue.lean ====
/-
  From the blocks to the whole output arrays.

  The grid has 16 points. Point t stages rows 8t … 8t+7 of the samples and writes rows 8t … 8t+7 of the two outputs;
  the five parameter arrays are staged whole at every point. So entry (q, r) of the block point t writes is the
  specification's entry (8t+q, r) of the output array, and the 16 blocks tile the 128 rows: after the run each
  output array is the specification's array.
-/
import proofs.«106169_j59416577572914_2_alg».proof.Proof.KernelIdealValue
import proofs.«106169_j59416577572914_2_alg».proof.Proof.OutBlock

set_option maxRecDepth 16384

noncomputable section

open scoped BigOperators

namespace Cert.KernelIdeal.KernelValue

open Cert.KernelIdeal Cert.KernelIdeal.Gen Cert.KernelIdeal.GenP Cert.KernelIdeal.ValueP Cert.KernelIdeal.RunValue Cert.MomentMatch Idealize.ShloMosaic Idealize.ShloMosaic.TcCoe Idealize.ShloMosaic.ValueIdx Idealize.SL.Sem

variable (m : (ℓ : Loc nD τ sig) → Buf (Elt Ideal) ℓ) (ρ : Dev nD → PrngReg)

/-- The printed index maps, decided over the 16 points: the samples' window and the two output windows sit at block
    (t, 0); the parameter windows at block 0 on every axis. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_7.index t (0 : Fin 2) = t.val ∧ win0_7.index t (1 : Fin 2) = 0
    ∧ (∀ a : Fin 3, win0_1.index t a = 0) ∧ (∀ a : Fin 3, win0_2.index t a = 0) ∧ (∀ a : Fin 3, win0_3.index t a = 0)
    ∧ (∀ a : Fin 2, win0_4.index t a = 0) ∧ (∀ a : Fin 2, win0_5.index t a = 0) :=
  (by decide +kernel : ∀ t : Fin grid0.N, _)

/-! ## Each input block read off its argument array -/

/-- The samples' block at point t is rows 8t … 8t+7 of the sample array. -/
theorem iblk0_apply (c : Dev nD) (t : Fin cfg0.N) (q : Fin 8) (e : Fin 128) (hk : 8 * t.val + q.val < 128) :
    (iblk m c 0 t : Vec Ideal S8x128 .f32) (ix2 q e)
      = ((m ((c : Thread nD τ).loc main_arg0)) : S128x128.Idx → EReal) (ix2 ⟨8 * t.val + q.val, hk⟩ e) := by
  obtain ⟨e0, e1, -⟩ := idx_facts t
  unfold iblk
  rw [View.read_apply]
  show V m c main_arg0 (((cfg0.win 0).blk t).view.emb (ix2 q e)) = V m c main_arg0 (ix2 ⟨8 * t.val + q.val, hk⟩ e)
  refine congrArg _ (funext fun a => Fin.ext ?_)
  match a with
  | ⟨0, _⟩ => show win0_0.index t (0 : Fin 2) * 8 + 1 * q.val = 8 * t.val + q.val; rw [e0]; omega
  | ⟨1, _⟩ => show win0_0.index t (1 : Fin 2) * 128 + 1 * e.val = e.val; rw [e1]; omega

/-- A parameter window's block is the whole parameter array, at every point. -/
theorem iblk1_apply (c : Dev nD) (t : Fin cfg0.N) (j : S128x128x32.Idx) :
    (iblk m c 1 t : Vec Ideal S128x128x32 .f32) j = ((m ((c : Thread nD τ).loc main_arg1)) : S128x128x32.Idx → EReal) j := by
  have e := (idx_facts t).2.2.2.2.2.2.1
  unfold iblk
  rw [View.read_apply]
  show V m c main_arg1 (((cfg0.win 1).blk t).view.emb j) = V m c main_arg1 j
  refine congrArg _ (funext fun a => Fin.ext ?_)
  match a with
  | ⟨0, _⟩ => show win0_1.index t (0 : Fin 3) * 128 + 1 * (j 0).val = (j 0).val; rw [e 0]; omega
  | ⟨1, _⟩ => show win0_1.index t (1 : Fin 3) * 128 + 1 * (j 1).val = (j 1).val; rw [e 1]; omega
  | ⟨2, _⟩ => show win0_1.index t (2 : Fin 3) * 32 + 1 * (j 2).val = (j 2).val; rw [e 2]; omega

theorem iblk2_apply (c : Dev nD) (t : Fin cfg0.N) (j : S128x128x32.Idx) :
    (iblk m c 2 t : Vec Ideal S128x128x32 .f32) j = ((m ((c : Thread nD τ).loc main_arg2)) : S128x128x32.Idx → EReal) j := by
  have e := (idx_facts t).2.2.2.2.2.2.2.1
  unfold iblk
  rw [View.read_apply]
  show V m c main_arg2 (((cfg0.win 2).blk t).view.emb j) = V m c main_arg2 j
  refine congrArg _ (funext fun a => Fin.ext ?_)
  match a with
  | ⟨0, _⟩ => show win0_2.index t (0 : Fin 3) * 128 + 1 * (j 0).val = (j 0).val; rw [e 0]; omega
  | ⟨1, _⟩ => show win0_2.index t (1 : Fin 3) * 128 + 1 * (j 1).val = (j 1).val; rw [e 1]; omega
  | ⟨2, _⟩ => show win0_2.index t (2 : Fin 3) * 32 + 1 * (j 2).val = (j 2).val; rw [e 2]; omega

theorem iblk3_apply (c : Dev nD) (t : Fin cfg0.N) (j : S128x128x32.Idx) :
    (iblk m c 3 t : Vec Ideal S128x128x32 .f32) j = ((m ((c : Thread nD τ).loc main_arg3)) : S128x128x32.Idx → EReal) j := by
  have e := (idx_facts t).2.2.2.2.2.2.2.2.1
  unfold iblk
  rw [View.read_apply]
  show V m c main_arg3 (((cfg0.win 3).blk t).view.emb j) = V m c main_arg3 j
  refine congrArg _ (funext fun a => Fin.ext ?_)
  match a with
  | ⟨0, _⟩ => show win0_3.index t (0 : Fin 3) * 128 + 1 * (j 0).val = (j 0).val; rw [e 0]; omega
  | ⟨1, _⟩ => show win0_3.index t (1 : Fin 3) * 128 + 1 * (j 1).val = (j 1).val; rw [e 1]; omega
  | ⟨2, _⟩ => show win0_3.index t (2 : Fin 3) * 32 + 1 * (j 2).val = (j 2).val; rw [e 2]; omega

theorem iblk4_apply (c : Dev nD) (t : Fin cfg0.N) (j : S128x128.Idx) :
    (iblk m c 4 t : Vec Ideal S128x128 .f32) j = ((m ((c : Thread nD τ).loc main_arg4)) : S128x128.Idx → EReal) j := by
  have e := (idx_facts t).2.2.2.2.2.2.2.2.2.1
  unfold iblk
  rw [View.read_apply]
  show V m c main_arg4 (((cfg0.win 4).blk t).view.emb j) = V m c main_arg4 j
  refine congrArg _ (funext fun a => Fin.ext ?_)
  match a with
  | ⟨0, _⟩ => show win0_4.index t (0 : Fin 2) * 128 + 1 * (j 0).val = (j 0).val; rw [e 0]; omega
  | ⟨1, _⟩ => show win0_4.index t (1 : Fin 2) * 128 + 1 * (j 1).val = (j 1).val; rw [e 1]; omega

theorem iblk5_apply (c : Dev nD) (t : Fin cfg0.N) (j : S128x128.Idx) :
    (iblk m c 5 t : Vec Ideal S128x128 .f32) j = ((m ((c : Thread nD τ).loc main_arg5)) : S128x128.Idx → EReal) j := by
  have e := (idx_facts t).2.2.2.2.2.2.2.2.2.2
  unfold iblk
  rw [View.read_apply]
  show V m c main_arg5 (((cfg0.win 5).blk t).view.emb j) = V m c main_arg5 j
  refine congrArg _ (funext fun a => Fin.ext ?_)
  match a with
  | ⟨0, _⟩ => show win0_5.index t (0 : Fin 2) * 128 + 1 * (j 0).val = (j 0).val; rw [e 0]; omega
  | ⟨1, _⟩ => show win0_5.index t (1 : Fin 2) * 128 + 1 * (j 1).val = (j 1).val; rw [e 1]; omega

/-! ## What each point writes back is its block of the specification's array -/

/-- What point t writes back to the mean output is block t of the specification's mean array. -/
theorem flushed6_eq (c : Dev nD) (t : Fin cfg0.N) :
    (dats m 0 c).flushed 6 t = ((cfg0.win 6).blk t).view.read (Elt Ideal) (meanArr (m ((c : Thread nD τ).loc main_arg0)) (m ((c : Thread nD τ).loc main_arg1)) (m ((c : Thread nD τ).loc main_arg2)) (m ((c : Thread nD τ).loc main_arg4)) (m ((c : Thread nD τ).loc main_arg5))) := by
  have hN : cfg0.N = 16 := N_0
  have ht : t.val < 16 := hN ▸ t.isLt
  obtain ⟨-, -, e0, e1, -⟩ := idx_facts t
  rw [flushed6_A]
  funext y
  obtain ⟨q, r, rfl⟩ : ∃ (q : Fin 8) (r : Fin 128), y = ix2 q r := ⟨y 0, y 1, eq_ix2 y⟩
  have hk : 8 * t.val + q.val < 128 := by have := q.isLt; omega
  -- the block's entry (q, r) sits at (8t + q, r) of the array
  have hemb : ((cfg0.win 6).blk t).view.emb (ix2 q r) = ix2 (⟨8 * t.val + q.val, hk⟩ : Fin 128) r := by
    funext a; apply Fin.ext
    match a with
    | ⟨0, _⟩ => show win0_6.index t (0 : Fin 2) * 8 + 1 * q.val = 8 * t.val + q.val; rw [e0]; omega
    | ⟨1, _⟩ => show win0_6.index t (1 : Fin 2) * 128 + 1 * r.val = r.val; rw [e1]; omega
  rw [View.read_apply, hemb]
  refine (out6_apply _ _ _ _ _ _ _ _ _ _ _ _ _ _ _ _ _ _ _ _ _ _ _ _ _ _ _ _ q r).trans ?_
  simp only [iblk0_apply m c t q _ hk, iblk1_apply, iblk2_apply, iblk4_apply, iblk5_apply]
  rfl

/-- What point t writes back to the variance output is block t of the specification's variance array. -/
theorem flushed7_eq (c : Dev nD) (t : Fin cfg0.N) :
    (dats m 0 c).flushed 7 t = ((cfg0.win 7).blk t).view.read (Elt Ideal) (varArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have hN : cfg0.N = 16 := N_0
  have ht : t.val < 16 := hN ▸ t.isLt
  obtain ⟨-, -, -, -, e0, e1, -⟩ := idx_facts t
  rw [flushed7_A]
  funext y
  obtain ⟨q, r, rfl⟩ : ∃ (q : Fin 8) (r : Fin 128), y = ix2 q r := ⟨y 0, y 1, eq_ix2 y⟩
  have hk : 8 * t.val + q.val < 128 := by have := q.isLt; omega
  -- the block's entry (q, r) sits at (8t + q, r) of the array
  have hemb : ((cfg0.win 7).blk t).view.emb (ix2 q r) = ix2 (⟨8 * t.val + q.val, hk⟩ : Fin 128) r := by
    funext a; apply Fin.ext
    match a with
    | ⟨0, _⟩ => show win0_7.index t (0 : Fin 2) * 8 + 1 * q.val = 8 * t.val + q.val; rw [e0]; omega
    | ⟨1, _⟩ => show win0_7.index t (1 : Fin 2) * 128 + 1 * r.val = r.val; rw [e1]; omega
  rw [View.read_apply, hemb]
  refine (out7_apply _ _ _ _ _ _ _ _ _ _ _ _ _ _ _ _ _ _ _ _ _ _ _ _ _ _ _ _ q r).trans ?_
  simp only [iblk0_apply m c t q _ hk, iblk1_apply, iblk2_apply, iblk3_apply, iblk4_apply, iblk5_apply]
  rfl

/-! ## The blocks tile the arrays -/

/-- An index of the array is in point t's block iff each coordinate is in the block's range on its axis. -/
theorem mem_blk6 (t : Fin cfg0.N) (i : S128x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v0_0).slice (win0_6.rect t)).set ↔ _
  rw [View.set_slice_whole, Rect.mem_set_unit]
  exact Iff.rfl

/-- The 16 blocks tile the array: row n is in the block of point n / 8. -/
theorem cover6 (i : S128x128.Idx) : ∃ t : Fin cfg0.N, (cfg0.win 6).flush t = true ∧ i ∈ ((cfg0.win 6).blk t).view.set := by
  have hN : cfg0.N = 16 := N_0
  have hi0 : (i 0).val < 128 := (i 0).isLt
  have hi1 : (i 1).val < 128 := (i 1).isLt
  refine ⟨⟨(i 0).val / 8, by rw [hN]; omega⟩, flush0_6 _, ?_⟩
  obtain ⟨-, -, e0, e1, -⟩ := idx_facts ⟨(i 0).val / 8, by rw [hN]; omega⟩
  rw [mem_blk6]
  intro a
  match a with
  | ⟨0, _⟩ => show win0_6.index _ (0 : Fin 2) * 8 ≤ (i 0).val ∧ (i 0).val < win0_6.index _ (0 : Fin 2) * 8 + 8; rw [e0]; show (i 0).val / 8 * 8 ≤ (i 0).val ∧ (i 0).val < (i 0).val / 8 * 8 + 8; omega
  | ⟨1, _⟩ => show win0_6.index _ (1 : Fin 2) * 128 ≤ (i 1).val ∧ (i 1).val < win0_6.index _ (1 : Fin 2) * 128 + 128; rw [e1]; omega

/-- An index of the array is in point t's block iff each coordinate is in the block's range on its axis. -/
theorem mem_blk7 (t : Fin cfg0.N) (i : S128x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v0_1).slice (win0_7.rect t)).set ↔ _
  rw [View.set_slice_whole, Rect.mem_set_unit]
  exact Iff.rfl

/-- The 16 blocks tile the array: row n is in the block of point n / 8. -/
theorem cover7 (i : S128x128.Idx) : ∃ t : Fin cfg0.N, (cfg0.win 7).flush t = true ∧ i ∈ ((cfg0.win 7).blk t).view.set := by
  have hN : cfg0.N = 16 := N_0
  have hi0 : (i 0).val < 128 := (i 0).isLt
  have hi1 : (i 1).val < 128 := (i 1).isLt
  refine ⟨⟨(i 0).val / 8, by rw [hN]; omega⟩, flush0_7 _, ?_⟩
  obtain ⟨-, -, -, -, e0, e1, -⟩ := idx_facts ⟨(i 0).val / 8, by rw [hN]; omega⟩
  rw [mem_blk7]
  intro a
  match a with
  | ⟨0, _⟩ => show win0_7.index _ (0 : Fin 2) * 8 ≤ (i 0).val ∧ (i 0).val < win0_7.index _ (0 : Fin 2) * 8 + 8; rw [e0]; show (i 0).val / 8 * 8 ≤ (i 0).val ∧ (i 0).val < (i 0).val / 8 * 8 + 8; omega
  | ⟨1, _⟩ => show win0_7.index _ (1 : Fin 2) * 128 ≤ (i 1).val ∧ (i 1).val < win0_7.index _ (1 : Fin 2) * 128 + 128; rw [e1]; omega

/-! ## The arrays after the run -/

/-- The mean output array after the run is the specification's. -/
theorem final6 (c : Dev nD) : (dats m 0 c).arrAt 6 cfg0.N
      = meanArr (m ((c : Thread nD τ).loc main_arg0)) (m ((c : Thread nD τ).loc main_arg1)) (m ((c : Thread nD τ).loc main_arg2)) (m ((c : Thread nD τ).loc main_arg4)) (m ((c : Thread nD τ).loc main_arg5)) :=
  (dats m 0 c).arrAt_eq_of_cover 6 (meanArr (m ((c : Thread nD τ).loc main_arg0)) (m ((c : Thread nD τ).loc main_arg1)) (m ((c : Thread nD τ).loc main_arg2)) (m ((c : Thread nD τ).loc main_arg4)) (m ((c : Thread nD τ).loc main_arg5))) (fun t _ => flushed6_eq m c t) cover6

/-- The variance output array after the run is the specification's. -/
theorem final7 (c : Dev nD) : (dats m 0 c).arrAt 7 cfg0.N
      = varArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 (varArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed7_eq m c t) cover7

/-- The kernel's run: the two outputs at the specification's arrays, the arguments unchanged. -/
theorem run : θ_run defs (onTc (τ := τ) (main (F := Ideal))) ⟨m, fun _ => 0, ρ⟩ fun r => ∀ c : Dev nD,
      r.2.mem ((c : Thread nD τ).loc main_v0_0) = meanArr (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v0_1) = varArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (run_blocks m ρ)

end Cert.KernelIdeal.KernelValue

end
-- ==== Proof.RefValue.lean ====
/-
  The reference program computes the specification (Spec.lean).

  Every array of the reference is read at an index given by its coordinates — sample n, output unit o, input i,
  inducing point m (a unit axis reads the coordinate 0). A broadcast only moves coordinates, so every intermediate
  array, read there, is an expression in the edge's scalars x = X[n,i], ls = LS[o,i], lv = LV[o,i] and, along the
  edge's inducing points, z m = Z[o,i,m], qm m = QM[o,i,m], qlv m = QLV[o,i,m]: the same operations in the same order
  and grouping as the specification's psi1, psi2, edgeMean and edgeVar. The program's spellings differ from the
  specification's in three places only, each joined by one fact about constants: the input variance is written
  0 + ε, its double 2 · (0 + ε) where the specification has the word of 2ε, and a negation where the specification
  subtracts from 0. A sum's initial value is the zero word, which adds nothing.
-/
import proofs.«106169_j59416577572914_2_alg».proof.Proof.Gen.ReferenceIdeal.Read
import proofs.«106169_j59416577572914_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.MomentMatch

/-- The one coordinate of a unit axis. -/
abbrev z1 : Fin 1 := ⟨0, Nat.one_pos⟩

/-- Two rank-2 indices with the same coordinates are equal: one case per axis. -/
local macro "coords2" : tactic =>
  `(tactic| (funext a; match a with | ⟨0, _⟩ => rfl | ⟨1, _⟩ => rfl))
/-- Likewise at rank 3. -/
local macro "coords3" : tactic =>
  `(tactic| (funext a; match a with | ⟨0, _⟩ => rfl | ⟨1, _⟩ => rfl | ⟨2, _⟩ => rfl))
/-- Likewise at rank 4. -/
local macro "coords4" : tactic =>
  `(tactic| (funext a; match a with | ⟨0, _⟩ => rfl | ⟨1, _⟩ => rfl | ⟨2, _⟩ => rfl | ⟨3, _⟩ => rfl))

section
variable (x0 : (⟨S128x128, .f32⟩ : BufTy).Contents (Elt Ideal))
  (x1 x2 x3 : (⟨S128x128x32, .f32⟩ : BufTy).Contents (Elt Ideal))
  (x4 x5 : (⟨S128x128, .f32⟩ : BufTy).Contents (Elt Ideal))
  (n o i : Fin 128) (m : Fin 32)

/-! ## The arrays that do not depend on the sample: constants and the floored parameters -/

/-- The input variance, everywhere: 0 + ε. -/
theorem v2_at (j : S128x128.Idx) : val_main_v2 (F := Ideal) j = Ideal.ofBits .f32 0x00000000#32 + cEps := by
  rw [val_main_v2_apply, val_main_v0_apply, val_main_v1_apply, val_main_cst_apply, val_main_cst_0_apply]
  rfl

/-- The floored signal variance σ. -/
theorem v8_at (j : S128x128.Idx) : val_main_v8 (F := Ideal) x5 j = sigVar (x5 j) := by
  rw [val_main_v8_apply, val_main_v6_apply, val_main_v7_apply, val_main_cst_2_apply]
  rfl

/-- The squared floored length-scale ℓ². -/
theorem v14_at (j : S128x128.Idx) : val_main_v14 (F := Ideal) x4 j = len2 (x4 j) := by
  rw [val_main_v14_apply, val_main_v11_apply, val_main_v9_apply, val_main_v10_apply, val_main_cst_3_apply]
  rfl

/-- The floored variational variance s. -/
theorem v5_at (j : S128x128x32.Idx) : val_main_v5 (F := Ideal) x3 j = qVar (x3 j) := by
  rw [val_main_v5_apply, val_main_v3_apply, val_main_v4_apply, val_main_cst_1_apply]
  rfl

/-- s + qm². -/
theorem v65_at (j : S128x128x32.Idx) : val_main_v65 (F := Ideal) x2 x3 j = qVar (x3 j) + x2 j * x2 j := by
  rw [val_main_v65_apply, v5_at, val_main_v64_apply]
  rfl

/-! ## The same arrays with unit axes added -/

theorem v15_at : val_main_v15 (F := Ideal) x4 (ix4 z1 o i z1) = len2 (x4 (ix2 o i)) := by
  rw [val_main_v15_apply, show idx_main_v15 (ix4 z1 o i z1) = ix2 o i from by coords2, v14_at]

theorem v16_at : val_main_v16 (F := Ideal) x5 (ix4 z1 o i z1) = sigVar (x5 (ix2 o i)) := by
  rw [val_main_v16_apply, show idx_main_v16 (ix4 z1 o i z1) = ix2 o i from by coords2, v8_at]

theorem v43_at : val_main_v43 (F := Ideal) x5 (ix4 z1 o i z1) = sigVar (x5 (ix2 o i)) * sigVar (x5 (ix2 o i)) := by
  rw [val_main_v43_apply, v16_at]
  rfl

theorem v12_at : val_main_v12 (F := Ideal) x0 (ix4 n z1 i z1) = x0 (ix2 n i) := by
  rw [val_main_v12_apply, show idx_main_v12 (ix4 n z1 i z1) = ix2 n i from by coords2]

theorem v13_at : val_main_v13 (F := Ideal) (ix4 n z1 i z1) = Ideal.ofBits .f32 0x00000000#32 + cEps := by
  rw [val_main_v13_apply, v2_at]

theorem v39_at : val_main_v39 (F := Ideal) (ix4 n z1 i z1) = cTwo * (Ideal.ofBits .f32 0x00000000#32 + cEps) := by
  rw [val_main_v39_apply, val_main_v38_apply, val_main_cst_5_apply, v13_at]
  rfl

theorem v17_at : val_main_v17 (F := Ideal) x1 (ix4 z1 o i m) = x1 (ix3 o i m) := by
  rw [val_main_v17_apply, show idx_main_v17 (ix4 z1 o i m) = ix3 o i m from by coords3]

theorem v56_at : val_main_v56 (F := Ideal) x2 (ix4 z1 o i m) = x2 (ix3 o i m) := by
  rw [val_main_v56_apply, show idx_main_v56 (ix4 z1 o i m) = ix3 o i m from by coords3]

theorem v66_at : val_main_v66 (F := Ideal) x2 x3 (ix4 z1 o i m) = qVar (x3 (ix3 o i m)) + x2 (ix3 o i m) * x2 (ix3 o i m) := by
  rw [val_main_v66_apply, show idx_main_v66 (ix4 z1 o i m) = ix3 o i m from by coords3, v65_at]

theorem v60_at : val_main_v60 (F := Ideal) x5 (ix3 z1 o i) = sigVar (x5 (ix2 o i)) := by
  rw [val_main_v60_apply, show idx_main_v60 (ix3 z1 o i) = ix2 o i from by coords2, v8_at]

theorem v63_at : val_main_v63 (F := Ideal) x5 (ix3 z1 o i) = sigVar (x5 (ix2 o i)) := by
  rw [val_main_v63_apply, show idx_main_v63 (ix3 z1 o i) = ix2 o i from by coords2, v8_at]

theorem v70_at : val_main_v70 (F := Ideal) x5 (ix3 z1 o i) = sigVar (x5 (ix2 o i)) * sigVar (x5 (ix2 o i)) := by
  rw [val_main_v70_apply, v63_at]
  rfl

/-! ## The factors of ψ₁ and ψ₂ that do not depend on the inducing point, at (n, o, i) -/

theorem v21_at : val_main_v21 (F := Ideal) x4 (ix4 n o i z1) = len2 (x4 (ix2 o i)) := by
  rw [val_main_v21_apply, show idx_main_v21 (ix4 n o i z1) = (ix4 z1 o i z1) from by coords4, v15_at]

theorem v24_at : val_main_v24 (F := Ideal) x4 (ix4 n o i z1) = len2 (x4 (ix2 o i)) := by
  rw [val_main_v24_apply, show idx_main_v24 (ix4 n o i z1) = (ix4 z1 o i z1) from by coords4, v15_at]

theorem v40_at : val_main_v40 (F := Ideal) x4 (ix4 n o i z1) = len2 (x4 (ix2 o i)) := by
  rw [val_main_v40_apply, show idx_main_v40 (ix4 n o i z1) = (ix4 z1 o i z1) from by coords4, v15_at]

theorem v44_at : val_main_v44 (F := Ideal) x4 (ix4 n o i z1) = len2 (x4 (ix2 o i)) := by
  rw [val_main_v44_apply, show idx_main_v44 (ix4 n o i z1) = (ix4 z1 o i z1) from by coords4, v15_at]

theorem v22_at : val_main_v22 (F := Ideal) (ix4 n o i z1) = Ideal.ofBits .f32 0x00000000#32 + cEps := by
  rw [val_main_v22_apply, show idx_main_v22 (ix4 n o i z1) = (ix4 n z1 i z1) from by coords4, v13_at]

/-- ψ₁'s denominator ℓ² + ε: the program's 0 + ε is ε. -/
theorem v23_at : val_main_v23 (F := Ideal) x4 (ix4 n o i z1) = len2 (x4 (ix2 o i)) + cEps := by
  rw [val_main_v23_apply, v21_at, v22_at, zero_word_add]
  rfl

theorem v26_at : val_main_v26 (F := Ideal) x4 (ix4 n o i z1) = Ideal.sqrt (Ideal.div (len2 (x4 (ix2 o i))) (len2 (x4 (ix2 o i)) + cEps)) := by
  rw [val_main_v26_apply, val_main_v25_apply, v24_at, v23_at]
  rfl

theorem v27_at : val_main_v27 (F := Ideal) x5 (ix4 n o i z1) = sigVar (x5 (ix2 o i)) := by
  rw [val_main_v27_apply, show idx_main_v27 (ix4 n o i z1) = (ix4 z1 o i z1) from by coords4, v16_at]

theorem v28_at : val_main_v28 (F := Ideal) x4 x5 (ix4 n o i z1) = sigVar (x5 (ix2 o i)) * Ideal.sqrt (Ideal.div (len2 (x4 (ix2 o i))) (len2 (x4 (ix2 o i)) + cEps)) := by
  rw [val_main_v28_apply, v27_at, v26_at]
  rfl

theorem v32_at : val_main_v32 (F := Ideal) x4 (ix4 n o i z1) = cTwo * (len2 (x4 (ix2 o i)) + cEps) := by
  rw [val_main_v32_apply, val_main_v31_apply, val_main_cst_4_apply, v23_at]
  rfl

theorem v41_at : val_main_v41 (F := Ideal) (ix4 n o i z1) = cTwo * (Ideal.ofBits .f32 0x00000000#32 + cEps) := by
  rw [val_main_v41_apply, show idx_main_v41 (ix4 n o i z1) = (ix4 n z1 i z1) from by coords4, v39_at]

/-- ψ₂'s denominator ℓ² + 2ε: the program's 2 · (0 + ε) is the word of 2ε. -/
theorem v42_at : val_main_v42 (F := Ideal) x4 (ix4 n o i z1) = len2 (x4 (ix2 o i)) + cEps2 := by
  rw [val_main_v42_apply, v40_at, v41_at, two_mul_eps]
  rfl

theorem v46_at : val_main_v46 (F := Ideal) x4 (ix4 n o i z1) = Ideal.sqrt (Ideal.div (len2 (x4 (ix2 o i))) (len2 (x4 (ix2 o i)) + cEps2)) := by
  rw [val_main_v46_apply, val_main_v45_apply, v44_at, v42_at]
  rfl

theorem v47_at : val_main_v47 (F := Ideal) x5 (ix4 n o i z1) = sigVar (x5 (ix2 o i)) * sigVar (x5 (ix2 o i)) := by
  rw [val_main_v47_apply, show idx_main_v47 (ix4 n o i z1) = (ix4 z1 o i z1) from by coords4, v43_at]

theorem v48_at : val_main_v48 (F := Ideal) x4 x5 (ix4 n o i z1) = (sigVar (x5 (ix2 o i)) * sigVar (x5 (ix2 o i))) * Ideal.sqrt (Ideal.div (len2 (x4 (ix2 o i))) (len2 (x4 (ix2 o i)) + cEps2)) := by
  rw [val_main_v48_apply, v47_at, v46_at]
  rfl

/-! ## ψ₁ and ψ₂ at (n, o, i, m) -/

/-- x − z m. -/
theorem v20_at : val_main_v20 (F := Ideal) x0 x1 (ix4 n o i m) = x0 (ix2 n i) - x1 (ix3 o i m) := by
  rw [val_main_v20_apply, val_main_v18_apply, show idx_main_v18 (ix4 n o i m) = (ix4 n z1 i z1) from by coords4, v12_at,
    val_main_v19_apply, show idx_main_v19 (ix4 n o i m) = (ix4 z1 o i m) from by coords4, v17_at]
  rfl

/-- −(x − z m)²: the program negates, the specification subtracts from 0. -/
theorem v30_at : val_main_v30 (F := Ideal) x0 x1 (ix4 n o i m) = 0 - (x0 (ix2 n i) - x1 (ix3 o i m)) * (x0 (ix2 n i) - x1 (ix3 o i m)) := by
  rw [val_main_v30_apply, val_main_v29_apply, v20_at, zero_sub]
  rfl

theorem v50_at : val_main_v50 (F := Ideal) x0 x1 (ix4 n o i m) = 0 - (x0 (ix2 n i) - x1 (ix3 o i m)) * (x0 (ix2 n i) - x1 (ix3 o i m)) := by
  rw [val_main_v50_apply, val_main_v49_apply, v20_at, zero_sub]
  rfl

theorem v37_at : val_main_v37 (F := Ideal) x0 x1 x4 x5 (ix4 n o i m) = psi1 (x0 (ix2 n i)) (x4 (ix2 o i)) (x5 (ix2 o i)) (x1 (ix3 o i m)) := by
  rw [val_main_v37_apply, val_main_v36_apply, show idx_main_v36 (ix4 n o i m) = (ix4 n o i z1) from by coords4, v28_at,
    val_main_v35_apply, val_main_v34_apply, v30_at, val_main_v33_apply, show idx_main_v33 (ix4 n o i m) = (ix4 n o i z1) from by coords4, v32_at]
  rfl

theorem v55_at : val_main_v55 (F := Ideal) x0 x1 x4 x5 (ix4 n o i m) = psi2 (x0 (ix2 n i)) (x4 (ix2 o i)) (x5 (ix2 o i)) (x1 (ix3 o i m)) := by
  rw [val_main_v55_apply, val_main_v54_apply, show idx_main_v54 (ix4 n o i m) = (ix4 n o i z1) from by coords4, v48_at,
    val_main_v53_apply, val_main_v52_apply, v50_at, val_main_v51_apply, show idx_main_v51 (ix4 n o i m) = (ix4 n o i z1) from by coords4, v42_at]
  rfl

/-- ψ₁(m) · qm m. -/
theorem v58_at : val_main_v58 (F := Ideal) x0 x1 x2 x4 x5 (ix4 n o i m) = psi1 (x0 (ix2 n i)) (x4 (ix2 o i)) (x5 (ix2 o i)) (x1 (ix3 o i m)) * x2 (ix3 o i m) := by
  rw [val_main_v58_apply, v37_at, val_main_v57_apply, show idx_main_v57 (ix4 n o i m) = (ix4 z1 o i m) from by coords4, v56_at]
  rfl

/-- ψ₂(m) · (s_m + (qm m)²). -/
theorem v68_at : val_main_v68 (F := Ideal) x0 x1 x2 x3 x4 x5 (ix4 n o i m) = psi2 (x0 (ix2 n i)) (x4 (ix2 o i)) (x5 (ix2 o i)) (x1 (ix3 o i m)) * (qVar (x3 (ix3 o i m)) + x2 (ix3 o i m) * x2 (ix3 o i m)) := by
  rw [val_main_v68_apply, v55_at, val_main_v67_apply, show idx_main_v67 (ix4 n o i m) = (ix4 z1 o i m) from by coords4, v66_at]
  rfl

/-! ## The sums over the inducing points, and one edge's mean and variance at (n, o, i) -/

/-- Σ_m ψ₁(m) · qm m. -/
theorem v59_at : val_main_v59 (F := Ideal) x0 x1 x2 x4 x5 (ix3 n o i)
    = ∑ m : Fin 32, psi1 (x0 (ix2 n i)) (x4 (ix2 o i)) (x5 (ix2 o i)) (x1 (ix3 o i m)) * x2 (ix3 o i m) := by
  rw [val_main_v59_apply, val_main_cst_6_apply, Ideal.ofBits_def, zero_word_add]
  refine Finset.sum_congr rfl fun m _ => ?_
  rw [show idx_main_v59 (ix3 n o i) m = (ix4 n o i m) from by coords4, v58_at]

/-- Σ_m ψ₂(m) · (s_m + (qm m)²). -/
theorem v69_at : val_main_v69 (F := Ideal) x0 x1 x2 x3 x4 x5 (ix3 n o i)
    = ∑ m : Fin 32, psi2 (x0 (ix2 n i)) (x4 (ix2 o i)) (x5 (ix2 o i)) (x1 (ix3 o i m)) * (qVar (x3 (ix3 o i m)) + x2 (ix3 o i m) * x2 (ix3 o i m)) := by
  rw [val_main_v69_apply, val_main_cst_7_apply, Ideal.ofBits_def, zero_word_add]
  refine Finset.sum_congr rfl fun m _ => ?_
  rw [show idx_main_v69 (ix3 n o i) m = (ix4 n o i m) from by coords4, v68_at]

/-- Σ_m ψ₂(m). -/
theorem v73_at : val_main_v73 (F := Ideal) x0 x1 x4 x5 (ix3 n o i)
    = ∑ m : Fin 32, psi2 (x0 (ix2 n i)) (x4 (ix2 o i)) (x5 (ix2 o i)) (x1 (ix3 o i m)) := by
  rw [val_main_v73_apply, val_main_cst_8_apply, Ideal.ofBits_def, zero_word_add]
  refine Finset.sum_congr rfl fun m _ => ?_
  rw [show idx_main_v73 (ix3 n o i) m = (ix4 n o i m) from by coords4, v55_at]

theorem v61_at : val_main_v61 (F := Ideal) x5 (ix3 n o i) = sigVar (x5 (ix2 o i)) := by
  rw [val_main_v61_apply, show idx_main_v61 (ix3 n o i) = (ix3 z1 o i) from by coords3, v60_at]

theorem v74_at : val_main_v74 (F := Ideal) x5 (ix3 n o i) = sigVar (x5 (ix2 o i)) := by
  rw [val_main_v74_apply, show idx_main_v74 (ix3 n o i) = (ix3 z1 o i) from by coords3, v63_at]

theorem v76_at : val_main_v76 (F := Ideal) x5 (ix3 n o i) = sigVar (x5 (ix2 o i)) := by
  rw [val_main_v76_apply, show idx_main_v76 (ix3 n o i) = (ix3 z1 o i) from by coords3, v63_at]

theorem v71_at : val_main_v71 (F := Ideal) x5 (ix3 n o i) = sigVar (x5 (ix2 o i)) * sigVar (x5 (ix2 o i)) := by
  rw [val_main_v71_apply, show idx_main_v71 (ix3 n o i) = (ix3 z1 o i) from by coords3, v70_at]

/-- The edge's mean. -/
theorem v62_at : val_main_v62 (F := Ideal) x0 x1 x2 x4 x5 (ix3 n o i) = edgeMean (x0 (ix2 n i)) (x4 (ix2 o i)) (x5 (ix2 o i)) (fun m => x1 (ix3 o i m)) (fun m => x2 (ix3 o i m)) := by
  rw [val_main_v62_apply, v59_at, v61_at]
  rfl

/-- The edge's variance. -/
theorem v82_at : val_main_v82 (F := Ideal) x0 x1 x2 x3 x4 x5 (ix3 n o i) = edgeVar (x0 (ix2 n i)) (x4 (ix2 o i)) (x5 (ix2 o i)) (fun m => x1 (ix3 o i m)) (fun m => x2 (ix3 o i m)) (fun m => x3 (ix3 o i m)) := by
  rw [val_main_v82_apply, val_main_v80_apply, val_main_v78_apply, val_main_v77_apply, v76_at,
    val_main_v75_apply, v73_at, v74_at, val_main_v72_apply, v69_at, v71_at,
    val_main_v79_apply, v62_at, val_main_v81_apply, val_main_cst_9_apply]
  rfl

end

/-! ## The two outputs: the edges summed over the inputs -/

theorem mean_eq (x0 : (⟨S128x128, .f32⟩ : BufTy).Contents (Elt Ideal)) (x1 x2 : (⟨S128x128x32, .f32⟩ : BufTy).Contents (Elt Ideal))
    (x4 x5 : (⟨S128x128, .f32⟩ : BufTy).Contents (Elt Ideal)) :
    val_main_v83 (F := Ideal) x0 x1 x2 x4 x5 = meanArr x0 x1 x2 x4 x5 := by
  funext j
  obtain ⟨n, o, rfl⟩ : ∃ n o : Fin 128, j = ix2 n o := ⟨j 0, j 1, eq_ix2 j⟩
  rw [val_main_v83_apply, val_main_cst_10_apply, Ideal.ofBits_def, zero_word_add]
  show _ = ∑ i : Fin 128, edgeMean (x0 (ix2 n i)) (x4 (ix2 o i)) (x5 (ix2 o i)) (fun m => x1 (ix3 o i m)) (fun m => x2 (ix3 o i m))
  refine Finset.sum_congr rfl fun i _ => ?_
  rw [show idx_main_v83 (ix2 n o) i = ix3 n o i from by coords3, v62_at]

theorem var_eq (x0 : (⟨S128x128, .f32⟩ : BufTy).Contents (Elt Ideal)) (x1 x2 x3 : (⟨S128x128x32, .f32⟩ : BufTy).Contents (Elt Ideal))
    (x4 x5 : (⟨S128x128, .f32⟩ : BufTy).Contents (Elt Ideal)) :
    val_main_v84 (F := Ideal) x0 x1 x2 x3 x4 x5 = varArr x0 x1 x2 x3 x4 x5 := by
  funext j
  obtain ⟨n, o, rfl⟩ : ∃ n o : Fin 128, j = ix2 n o := ⟨j 0, j 1, eq_ix2 j⟩
  rw [val_main_v84_apply, val_main_cst_11_apply, Ideal.ofBits_def, zero_word_add]
  show _ = ∑ i : Fin 128, edgeVar (x0 (ix2 n i)) (x4 (ix2 o i)) (x5 (ix2 o i)) (fun m => x1 (ix3 o i m)) (fun m => x2 (ix3 o i m))
      (fun m => x3 (ix3 o i m))
  refine Finset.sum_congr rfl fun i _ => ?_
  rw [show idx_main_v84 (ix2 n o) i = ix3 n o i from by coords3, v82_at]

end Cert.ReferenceIdeal.RefValue

end
-- ==== Proof.lean ====
/-
  The certificate of the per-edge RBF moment-matching layer: the kernel (8 samples per grid point, the 128 output units
  in sixteen chunks of 8 inside the body, partial sums staged transposed in two scratch buffers) against the plain
  array program.

  Both idealized programs compute, at output entry (n, o), the sum over the 128 edges (n, o, i) of one edge's mean
  (first result) and of one edge's floored variance (second result): `Cert.MomentMatch.meanArr` / `varArr`
  (Proof/Spec.lean). On the extended reals the two programs apply the same operations in the same order and grouping
  to the same elements; they differ only in layout (chunking, broadcasts, two transposes) and in three spellings of
  constants — the reference's input variance 0 + ε, its 2·(0 + ε) against the kernel's one word for 2ε (an exact
  doubling of the f32 pattern), and a negation against a subtraction from zero —, so no algebraic law beyond those
  three constant facts is used, and the inputs' finiteness is not needed.

  The reference's side is read off its generated run one operation at a time (Proof/RefValue.lean). The kernel's side
  is read off its frame run: one trip's stored tile at an element (Proof/TripValue.lean), the scratch buffers after the
  sixteen trips (Proof/ScratchTiles.lean, Proof/ScratchRead.lean), a grid point's two output blocks
  (Proof/OutBlock.lean), and the blocks assembled into the arrays (Proof/KernelValue.lean). The three frame claims are
  the frame runs themselves; the idealization rewrote nothing, so `preserves` is trivial.
-/
import proofs.«106169_j59416577572914_2_alg».proof.Defs
import proofs.«106169_j59416577572914_2_alg».proof.Proof.Gen.Kernel
import proofs.«106169_j59416577572914_2_alg».proof.Proof.Gen.KernelIdeal
import proofs.«106169_j59416577572914_2_alg».proof.Proof.Gen.ReferenceIdeal
import proofs.«106169_j59416577572914_2_alg».proof.Proof.Gen.Pre_finite_inputs
import proofs.«106169_j59416577572914_2_alg».proof.Proof.Gen.ReferenceIdeal.Read
import proofs.«106169_j59416577572914_2_alg».proof.Proof.KernelFrame
import proofs.«106169_j59416577572914_2_alg».proof.Proof.KernelIdealFrame
import proofs.«106169_j59416577572914_2_alg».proof.Proof.KernelValue
import proofs.«106169_j59416577572914_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its frame run. -/
theorem frame_p : Cert.frame_Kernel := fun m ρ _ => Cert.Kernel.GenP.frame m ρ

/-- So does the idealized kernel. -/
theorem frame_pi : Cert.frame_KernelIdeal := fun m ρ _ => Cert.KernelIdeal.GenP.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the six arguments both programs end with the mean output at `meanArr` and the variance
    output at `varArr` of the arguments. -/
theorem algebraic : Cert.algebraic_KernelIdeal_ReferenceIdeal := by
  intro m ρ m' ρ' _ hagree
  refine ⟨fun c => Cert.MomentMatch.meanArr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)),
    fun c => Cert.MomentMatch.varArr (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v83_eq, Cert.ReferenceIdeal.RefValue.mean_eq,
      (hagree c).1, (hagree c).2.1, (hagree c).2.2.1, (hagree c).2.2.2.2.1, (hagree c).2.2.2.2.2]
  · rw [Cert.ReferenceIdeal.Read.val_main_v84_eq, Cert.ReferenceIdeal.RefValue.var_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
